-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v28)) (v1 : (c : Dev Cert.KernelIdeal.nD) → Buf (Elt Ideal) ((c.tc : Thread Cert.KernelIdeal.nD Cert.KernelIdeal.τ).loc Cert.KernelIdeal.main_v26_1)) (v2 : (c : Dev Cert.KernelIdeal.nD) → Buf (Elt Ideal) ((c.tc : Thread Cert.KernelIdeal.nD Cert.KernelIdeal.τ).loc Cert.KernelIdeal.main_v26_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_v26_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v16) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x3072 : S_.BroadcastsInDim S2048x3072 (![] : Fin 0 → Fin S2048x3072.rank)
  reducesTo_S2048x3072_S_d0_1 : S2048x3072.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_arg11 : FVec F S2048 .f32) (main_v48 : IVec S_ 1) (main_v49 : FVec F S2048x3072 .f32) (main_v50 : FVec F S2048x3072 .f32) : IVec S_ 1 :=
  let main_v51 : IVec S2048x3072 1 := cmpf .olt main_v49 main_v50
  let main_c_19 : IVec S_ 1 := constantI S_ 1 1#1
  let main_v52 : IVec S_ 1 := (fun x v => Host.reduce IntOp.andi x v reducesTo_S2048x3072_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  main_v58

def fn_part2 {F : FTy → Type} [FloatOps F] (main_arg7 : FVec F S2048 .f32) (main_arg8 : FVec F S2048x3072 .f32) (main_arg9 : FVec F S2048 .f32) (main_arg10 : FVec F S2048x3072 .f32) (main_arg11 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x3072 .f32 := Host.absf main_arg8
  let main_cst_14 : FVec F S_ .f32 := constant S_ .f32 0x7F800000#32
  let main_v40 : FVec F S2048x3072 .f32 := broadcastInDim S2048x3072 ![] bcast_S_S2048x3072 main_cst_14
  let main_v41 : IVec S2048x3072 1 := cmpf .olt main_v39 main_v40
  let main_c_15 : IVec S_ 1 := constantI S_ 1 1#1
  let main_v42 : IVec S_ 1 := (fun x v => Host.reduce IntOp.andi x v reducesTo_S2048x3072_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  let main_v49 : FVec F S2048x3072 .f32 := Host.absf main_arg10
  let main_cst_18 : FVec F S_ .f32 := constant S_ .f32 0x7F800000#32
  let main_v50 : FVec F S2048x3072 .f32 := broadcastInDim S2048x3072 ![] bcast_S_S2048x3072 main_cst_18
  fn_part3 (F := F) main_arg11 main_v48 main_v49 main_v50

def fn_part1 {F : FTy → Type} [FloatOps F] (main_arg4 : FVec F S2048x3072 .f32) (main_arg5 : FVec F S2048 .f32) (main_arg6 : FVec F S2048x3072 .f32) (main_arg7 : FVec F S2048 .f32) (main_arg8 : FVec F S2048x3072 .f32) (main_arg9 : FVec F S2048 .f32) (main_arg10 : FVec F S2048x3072 .f32) (main_arg11 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048x3072 .f32 := Host.absf main_arg4
  let main_cst_6 : FVec F S_ .f32 := constant S_ .f32 0x7F800000#32
  let main_v20 : FVec F S2048x3072 .f32 := broadcastInDim S2048x3072 ![] bcast_S_S2048x3072 main_cst_6
  let main_v21 : IVec S2048x3072 1 := cmpf .olt main_v19 main_v20
  let main_c_7 : IVec S_ 1 := constantI S_ 1 1#1
  let main_v22 : IVec S_ 1 := (fun x v => Host.reduce IntOp.andi x v reducesTo_S2048x3072_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x3072 .f32 := Host.absf main_arg6
  let main_cst_10 : FVec F S_ .f32 := constant S_ .f32 0x7F800000#32
  let main_v30 : FVec F S2048x3072 .f32 := broadcastInDim S2048x3072 ![] bcast_S_S2048x3072 main_cst_10
  let main_v31 : IVec S2048x3072 1 := cmpf .olt main_v29 main_v30
  let main_c_11 : IVec S_ 1 := constantI S_ 1 1#1
  let main_v32 : IVec S_ 1 := (fun x v => Host.reduce IntOp.andi x v reducesTo_S2048x3072_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S4096x1024 .f32) (main_arg1 : FVec F S4096x2048 .f32) (main_arg2 : FVec F S4096x2048 .f32) (main_arg3 : FVec F S4096x2048 .f32) (main_arg4 : FVec F S2048x3072 .f32) (main_arg5 : FVec F S2048 .f32) (main_arg6 : FVec F S2048x3072 .f32) (main_arg7 : FVec F S2048 .f32) (main_arg8 : FVec F S2048x3072 .f32) (main_arg9 : FVec F S2048 .f32) (main_arg10 : FVec F S2048x3072 .f32) (main_arg11 : FVec F S2048 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_arg11 main_v13 main_v16
-- ==== Kernel.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S2048x1024 : Shape := ⟨2, ![2048, 1024]⟩
abbrev S1024x2048 : Shape := ⟨2, ![1024, 2048]⟩
abbrev S2048x2048 : Shape := ⟨2, ![2048, 2048]⟩
abbrev S1x2048 : Shape := ⟨2, ![1, 2048]⟩
abbrev S128x1024 : Shape := ⟨2, ![128, 1024]⟩
abbrev S128x2048 : Shape := ⟨2, ![128, 2048]⟩
abbrev S128x512 : Shape := ⟨2, ![128, 512]⟩
abbrev S1024x512 : Shape := ⟨2, ![1024, 512]⟩
abbrev S2048x512 : Shape := ⟨2, ![2048, 512]⟩
abbrev S1x512 : Shape := ⟨2, ![1, 512]⟩

abbrev nBuf : Space → Nat
  | .hbm => 43
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S2048, .f32⟩
  | .hbm, ⟨6, _⟩ => ⟨S2048x3072, .f32⟩
  | .hbm, ⟨7, _⟩ => ⟨S2048, .f32⟩
  | .hbm, ⟨8, _⟩ => ⟨S2048x3072, .f32⟩
  | .hbm, ⟨9, _⟩ => ⟨S2048, .f32⟩
  | .hbm, ⟨10, _⟩ => ⟨S2048x3072, .f32⟩
  | .hbm, ⟨11, _⟩ => ⟨S2048, .f32⟩
  | .hbm, ⟨12, _⟩ => ⟨S2048x1024, .f32⟩
  | .hbm, ⟨13, _⟩ => ⟨S1024x2048, .f32⟩
  | .hbm, ⟨14, _⟩ => ⟨S2048x2048, .f32⟩
  | .hbm, ⟨15, _⟩ => ⟨S2048x2048, .f32⟩
  | .hbm, ⟨16, _⟩ => ⟨S2048x1024, .f32⟩
  | .hbm, ⟨17, _⟩ => ⟨S1024x2048, .f32⟩
  | .hbm, ⟨18, _⟩ => ⟨S1024x2048, .bf16⟩
  | .hbm, ⟨19, _⟩ => ⟨S2048x2048, .f32⟩
  | .hbm, ⟨20, _⟩ => ⟨S2048x2048, .f32⟩
  | .hbm, ⟨21, _⟩ => ⟨S2048x2048, .bf16⟩
  | .hbm, ⟨22, _⟩ => ⟨S2048x1024, .f32⟩
  | .hbm, ⟨23, _⟩ => ⟨S1024x2048, .f32⟩
  | .hbm, ⟨24, _⟩ => ⟨S1024x2048, .bf16⟩
  | .hbm, ⟨25, _⟩ => ⟨S2048x2048, .f32⟩
  | .hbm, ⟨26, _⟩ => ⟨S2048x2048, .f32⟩
  | .hbm, ⟨27, _⟩ => ⟨S2048x2048, .bf16⟩
  | .hbm, ⟨28, _⟩ => ⟨S2048x1024, .f32⟩
  | .hbm, ⟨29, _⟩ => ⟨S1024x2048, .f32⟩
  | .hbm, ⟨30, _⟩ => ⟨S1024x2048, .bf16⟩
  | .hbm, ⟨31, _⟩ => ⟨S2048x2048, .f32⟩
  | .hbm, ⟨32, _⟩ => ⟨S2048x2048, .f32⟩
  | .hbm, ⟨33, _⟩ => ⟨S2048x2048, .bf16⟩
  | .hbm, ⟨34, _⟩ => ⟨S1x2048, .f32⟩
  | .hbm, ⟨35, _⟩ => ⟨S1x2048, .f32⟩
  | .hbm, ⟨36, _⟩ => ⟨S1x2048, .f32⟩
  | .hbm, ⟨37, _⟩ => ⟨S1x2048, .f32⟩
  | .hbm, ⟨38, _⟩ => ⟨S4096x2048, .f32⟩
  | .hbm, ⟨39, _⟩ => ⟨S4096x2048, .f32⟩
  | .hbm, ⟨40, _⟩ => ⟨S4096x2048, .bf16⟩
  | .hbm, ⟨41, _⟩ => ⟨S4096x1024, .bf16⟩
  | .hbm, ⟨42, _⟩ => ⟨S4096x2048, .f32⟩
  | .local _ .vmem, ⟨0, _⟩ => ⟨S128x1024, .f32⟩
  | .local _ .vmem, ⟨1, _⟩ => ⟨S128x1024, .f32⟩
  | .local _ .vmem, ⟨2, _⟩ => ⟨S128x2048, .f32⟩
  | .local _ .vmem, ⟨3, _⟩ => ⟨S128x2048, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S1024x512, .f32⟩
  | .local _ .vmem, ⟨9, _⟩ => ⟨S1024x512, .f32⟩
  | .local _ .vmem, ⟨10, _⟩ => ⟨S2048x512, .f32⟩
  | .local _ .vmem, ⟨11, _⟩ => ⟨S2048x512, .f32⟩
  | .local _ .vmem, ⟨12, _⟩ => ⟨S1x512, .f32⟩
  | .local _ .vmem, ⟨13, _⟩ => ⟨S1x512, .f32⟩
  | .local _ .vmem, ⟨14, _⟩ => ⟨S1024x512, .bf16⟩
  | .local _ .vmem, ⟨15, _⟩ => ⟨S1024x512, .bf16⟩
  | .local _ .vmem, ⟨16, _⟩ => ⟨S2048x512, .bf16⟩
  | .local _ .vmem, ⟨17, _⟩ => ⟨S2048x512, .bf16⟩
  | .local _ .vmem, ⟨18, _⟩ => ⟨S1x512, .f32⟩
  | .local _ .vmem, ⟨19, _⟩ => ⟨S1x512, .f32⟩
  | .local _ .vmem, ⟨20, _⟩ => ⟨S128x512, .f32⟩
  | .local _ .vmem, ⟨21, _⟩ => ⟨S128x512, .f32⟩
  | .local _ .vmem, ⟨22, _⟩ => ⟨S128x512, .f32⟩
  | .local _ .vmem, ⟨23, _⟩ => ⟨S128x512, .f32⟩
  | .local _ .vmem, ⟨24, _⟩ => ⟨S128x512, .bf16⟩
  | .local _ .vmem, ⟨25, _⟩ => ⟨S128x512, .bf16⟩
  | .local _ .vmem, ⟨26, _⟩ => ⟨S128x1024, .bf16⟩
  | .local _ .vmem, ⟨27, _⟩ => ⟨S128x1024, .bf16⟩
  | .local _ .vmem, ⟨28, _⟩ => ⟨S128x2048, .bf16⟩
  | .local _ .vmem, ⟨29, _⟩ => ⟨S128x2048, .bf16⟩
  | .local _ .vmem, ⟨30, _⟩ => ⟨S128x2048, .f32⟩
  | .local _ .vmem, ⟨31, _⟩ => ⟨S128x2048, .f32⟩
  | .local _ .vmem, ⟨32, _⟩ => ⟨S1024x2048, .bf16⟩
  | .local _ .vmem, ⟨33, _⟩ => ⟨S2048x2048, .bf16⟩
  | .local _ .vmem, ⟨34, _⟩ => ⟨S1x2048, .f32⟩
  | .local _ .vmem, ⟨35, _⟩ => ⟨S1024x2048, .bf16⟩
  | .local _ .vmem, ⟨36, _⟩ => ⟨S2048x2048, .bf16⟩
  | .local _ .vmem, ⟨37, _⟩ => ⟨S1x2048, .f32⟩
  | .local _ .vmem, ⟨38, _⟩ => ⟨S128x2048, .f32⟩
  | .local _ .vmem, ⟨39, _⟩ => ⟨S128x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26_0 : Ref sig .tc := ⟨.hbm, 38, rfl⟩
abbrev main_v26_1 : Ref sig .tc := ⟨.hbm, 39, rfl⟩
abbrev main_v26_2 : Ref sig .tc := ⟨.hbm, 40, rfl⟩
abbrev main_v27 : Ref sig .tc := ⟨.hbm, 41, rfl⟩
abbrev main_v28 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc1_stg0_0 : Ref sig .tc := ⟨.vmem, 26, rfl⟩
abbrev cc1_stg0_1 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg9_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc1_sem0_0 : DmaSem sig := 26
abbrev cc1_sem0_1 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem9_1 : DmaSem sig := 39

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg0 : BitVec 32 := BitVec.ofNat 32 (i 0).val
  let c512_i32 : BitVec 32 := 512#32
  let v47 : BitVec 32 := Scalar.muli arg0 c512_i32
  v47
def k0_off1 (i : grid0.Coords) : Fin 2 → Nat :=
  let c0_27 : Index := 0#32
  let arg0 : BitVec 32 := BitVec.ofNat 32 (i 0).val
  let c512_i32 : BitVec 32 := 512#32
  let v47 : BitVec 32 := Scalar.muli arg0 c512_i32
  let v48 : BitVec 32 := v47
  let v49 : Index := Scalar.indexCast v48
  ![0, v49.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S128x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S128x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x2048 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1024x2048 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x2048 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x2048 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S128x2048 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2048x3072_S2048x1024_0_0 : S2048x3072.Slices ![0, 0] S2048x1024
  transposes_S2048x1024_S1024x2048_1_0 : S2048x1024.Transposes [1, 0] S1024x2048
  slices_S2048x3072_S2048x2048_0_1024 : S2048x3072.Slices ![0, 1024] S2048x2048
  transposes_S2048x2048_S2048x2048_1_0 : S2048x2048.Transposes [1, 0] S2048x2048
  bitsLt_bf16_f32 : FTy.bits .bf16 < FTy.bits .f32
  shapeCasts_S2048_S1x2048 : S2048.ShapeCasts S1x2048
  inb_S128x1024_S128x1024_0_0 : ∀ a, (![0, 0] : Fin 2 → Nat) a + S128x1024.size a ≤ S128x1024.size a
  h_S128x1024 : 0 < S128x1024.numel
  inb_S128x2048_S128x2048_0_0 : ∀ a, (![0, 0] : Fin 2 → Nat) a + S128x2048.size a ≤ S128x2048.size a
  h_S128x2048 : 0 < S128x2048.numel
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  natLt_1_32 : 1 < 32
  packedbf16_S128x512_S128x512_0_0 : (Rect.unit (s := S128x512) ![0, 0] S128x512.size inb_S128x512_S128x512_0_0).PackedRows (EltTy.packing .bf16)
  shapeCasts_S128x1024_S128x1024 : S128x1024.ShapeCasts S128x1024
  shapeCasts_S128x2048_S128x2048 : S128x2048.ShapeCasts S128x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  dot_S128x1024_S1024x512_S128x512_1_0_0_1_n_n_wf : DotDims.WF S128x1024 S1024x512 S128x512 [1] [0] [0] [1] [] []
  dot_S128x2048_S2048x512_S128x512_1_0_0_1_n_n_wf : DotDims.WF S128x2048 S2048x512 S128x512 [1] [0] [0] [1] [] []
  dot_S128x1024_S1024x2048_S128x2048_1_0_0_1_n_n_wf : DotDims.WF S128x1024 S1024x2048 S128x2048 [1] [0] [0] [1] [] []
  dot_S128x2048_S2048x2048_S128x2048_1_0_0_1_n_n_wf : DotDims.WF S128x2048 S2048x2048 S128x2048 [1] [0] [0] [1] [] []
  hrank0 : 0 < grid0.rank
  k0_mult1_dvd : ∀ i : grid0.Coords, 128 ∣ (k0_mult1 i).toNat
  k0_off1_inb : ∀ i : grid0.Coords, ∀ a, (k0_off1 i) a + S128x512.size a ≤ S128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x1024.size a ≤ S4096x1024.size a
  hwx0_0 : ∀ i : grid0.Coords, EltTy.bits .f32 = 32 ∨ (Rect.block (s := S4096x1024) S128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S4096x2048.size a
  hwx0_1 : ∀ i : grid0.Coords, EltTy.bits .f32 = 32 ∨ (Rect.block (s := S4096x2048) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S4096x2048.size a
  hwx0_2 : ∀ i : grid0.Coords, EltTy.bits .f32 = 32 ∨ (Rect.block (s := S4096x2048) S128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x512.size a ≤ S4096x2048.size a
  hwx0_3 : ∀ i : grid0.Coords, EltTy.bits .f32 = 32 ∨ (Rect.block (s := S4096x2048) S128x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x2048.size a
  hwx0_4 : ∀ i : grid0.Coords, EltTy.bits .f32 = 32 ∨ (Rect.block (s := S1024x2048) S1024x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S2048x2048.size a
  hwx0_5 : ∀ i : grid0.Coords, EltTy.bits .f32 = 32 ∨ (Rect.block (s := S2048x2048) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x2048.size a
  hwx0_7 : ∀ i : grid0.Coords, EltTy.bits .bf16 = 32 ∨ (Rect.block (s := S1024x2048) S1024x512.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x512.size a ≤ S2048x2048.size a
  hwx0_8 : ∀ i : grid0.Coords, EltTy.bits .bf16 = 32 ∨ (Rect.block (s := S2048x2048) S2048x512.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x512.size a ≤ S4096x2048.size a
  hwx0_10 : ∀ i : grid0.Coords, EltTy.bits .f32 = 32 ∨ (Rect.block (s := S4096x2048) S128x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S128x512.size a ≤ S4096x2048.size a
  hwx0_11 : ∀ i : grid0.Coords, EltTy.bits .f32 = 32 ∨ (Rect.block (s := S4096x2048) S128x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S128x512.size a ≤ S4096x2048.size a
  hwx0_12 : ∀ i : grid0.Coords, EltTy.bits .bf16 = 32 ∨ (Rect.block (s := S4096x2048) S128x512.size (cc0_transform_12 i) (hinb0_12 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x1024.size a ≤ S4096x1024.size a
  hwx1_0 : ∀ i : grid1.Coords, EltTy.bits .bf16 = 32 ∨ (Rect.block (s := S4096x1024) S128x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x2048.size a ≤ S4096x2048.size a
  hwx1_1 : ∀ i : grid1.Coords, EltTy.bits .bf16 = 32 ∨ (Rect.block (s := S4096x2048) S128x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x2048.size a ≤ S4096x2048.size a
  hwx1_2 : ∀ i : grid1.Coords, EltTy.bits .f32 = 32 ∨ (Rect.block (s := S4096x2048) S128x2048.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x2048.size a ≤ S1024x2048.size a
  hwx1_3 : ∀ i : grid1.Coords, EltTy.bits .bf16 = 32 ∨ (Rect.block (s := S1024x2048) S1024x2048.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S2048x2048.size a ≤ S2048x2048.size a
  hwx1_4 : ∀ i : grid1.Coords, EltTy.bits .bf16 = 32 ∨ (Rect.block (s := S2048x2048) S2048x2048.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x2048.size a ≤ S1x2048.size a
  hwx1_5 : ∀ i : grid1.Coords, EltTy.bits .f32 = 32 ∨ (Rect.block (s := S1x2048) S1x2048.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1024x2048.size a ≤ S1024x2048.size a
  hwx1_6 : ∀ i : grid1.Coords, EltTy.bits .bf16 = 32 ∨ (Rect.block (s := S1024x2048) S1024x2048.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S2048x2048.size a ≤ S2048x2048.size a
  hwx1_7 : ∀ i : grid1.Coords, EltTy.bits .bf16 = 32 ∨ (Rect.block (s := S2048x2048) S2048x2048.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x2048.size a ≤ S1x2048.size a
  hwx1_8 : ∀ i : grid1.Coords, EltTy.bits .f32 = 32 ∨ (Rect.block (s := S1x2048) S1x2048.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S128x2048.size a ≤ S4096x2048.size a
  hwx1_9 : ∀ i : grid1.Coords, EltTy.bits .f32 = 32 ∨ (Rect.block (s := S4096x2048) S128x2048.size (cc1_transform_9 i) (hinb1_9 i)).WholeWords (EltTy.packing .f32)

variable [Facts₀]

def dot_S128x1024_S1024x512_S128x512_1_0_0_1_n_n : DotDims S128x1024 S1024x512 S128x512 where
  lhsContracting := [1]
  rhsContracting := [0]
  lhsNonContracting := [0]
  rhsNonContracting := [1]
  lhsBatch := []
  rhsBatch := []
  wf := dot_S128x1024_S1024x512_S128x512_1_0_0_1_n_n_wf
def dot_S128x2048_S2048x512_S128x512_1_0_0_1_n_n : DotDims S128x2048 S2048x512 S128x512 where
  lhsContracting := [1]
  rhsContracting := [0]
  lhsNonContracting := [0]
  rhsNonContracting := [1]
  lhsBatch := []
  rhsBatch := []
  wf := dot_S128x2048_S2048x512_S128x512_1_0_0_1_n_n_wf
def dot_S128x1024_S1024x2048_S128x2048_1_0_0_1_n_n : DotDims S128x1024 S1024x2048 S128x2048 where
  lhsContracting := [1]
  rhsContracting := [0]
  lhsNonContracting := [0]
  rhsNonContracting := [1]
  lhsBatch := []
  rhsBatch := []
  wf := dot_S128x1024_S1024x2048_S128x2048_1_0_0_1_n_n_wf
def dot_S128x2048_S2048x2048_S128x2048_1_0_0_1_n_n : DotDims S128x2048 S2048x2048 S128x2048 where
  lhsContracting := [1]
  rhsContracting := [0]
  lhsNonContracting := [0]
  rhsNonContracting := [1]
  lhsBatch := []
  rhsBatch := []
  wf := dot_S128x2048_S2048x2048_S128x2048_1_0_0_1_n_n_wf

abbrev win0_0 : Pipeline.Window sig grid0 :=
  Pipeline.Window.ofSpec (Memref.whole main_arg0) S128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3) S2048x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1024x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9) S2048x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v23) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v26_0) S128x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v26_1) S128x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v26_2) S128x512.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

abbrev win1_0 : Pipeline.Window sig grid1 :=
  Pipeline.Window.ofSpec (Memref.whole main_v27) S128x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26_2) S128x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S128x2048.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1024x2048.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S2048x2048.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v24) S1x2048.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S1024x2048.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S2048x2048.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v25) S1x2048.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v28) S128x2048.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x3072 : Shape := ⟨2, ![2048, 3072]⟩
abbrev S2048 : Shape := ⟨1, ![2048]⟩
abbrev S4096x3072 : Shape := ⟨2, ![4096, 3072]⟩
abbrev S3072x2048 : Shape := ⟨2, ![3072, 2048]⟩
abbrev S1x2048 : Shape := ⟨2, ![1, 2048]⟩
abbrev S_ : Shape := ⟨0, ![]⟩

abbrev nBuf : Space → Nat
  | .hbm => 81
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S2048x3072, .f32⟩
  | .hbm, ⟨5, _⟩ => ⟨S2048, .f32⟩
  | .hbm, ⟨6, _⟩ => ⟨S2048x3072, .f32⟩
  | .hbm, ⟨7, _⟩ => ⟨S2048, .f32⟩
  | .hbm, ⟨8, _⟩ => ⟨S2048x3072, .f32⟩
  | .hbm, ⟨9, _⟩ => ⟨S2048, .f32⟩
  | .hbm, ⟨10, _⟩ => ⟨S2048x3072, .f32⟩
  | .hbm, ⟨11, _⟩ => ⟨S2048, .f32⟩
  | .hbm, ⟨12, _⟩ => ⟨S4096x3072, .f32⟩
  | .hbm, ⟨13, _⟩ => ⟨S3072x2048, .f32⟩
  | .hbm, ⟨14, _⟩ => ⟨S4096x2048, .f32⟩
  | .hbm, ⟨15, _⟩ => ⟨S1x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S4096x2048, .f32⟩
  | .hbm, ⟨20, _⟩ => ⟨S_, .f32⟩
  | .hbm, ⟨21, _⟩ => ⟨S4096x2048, .f32⟩
  | .hbm, ⟨22, _⟩ => ⟨S4096x2048, .f32⟩
  | .hbm, ⟨23, _⟩ => ⟨S_, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .i1⟩
  | .hbm, ⟨29, _⟩ => ⟨S4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S3072x2048, .f32⟩
  | .hbm, ⟨37, _⟩ => ⟨S4096x2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x3072, .f32⟩
  | .hbm, ⟨55, _⟩ => ⟨S3072x2048, .f32⟩
  | .hbm, ⟨56, _⟩ => ⟨S4096x2048, .f32⟩
  | .hbm, ⟨57, _⟩ => ⟨S1x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S3072x2048, .f32⟩
  | .hbm, ⟨62, _⟩ => ⟨S4096x2048, .f32⟩
  | .hbm, ⟨63, _⟩ => ⟨S1x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S4096x2048, .f32⟩
  | .hbm, ⟨70, _⟩ => ⟨S4096x2048, .f32⟩
  | .hbm, ⟨71, _⟩ => ⟨S_, .f32⟩
  | .hbm, ⟨72, _⟩ => ⟨S4096x2048, .f32⟩
  | .hbm, ⟨73, _⟩ => ⟨S4096x2048, .f32⟩
  | .hbm, ⟨74, _⟩ => ⟨S_, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_call0_cst : Ref sig .tc := ⟨.hbm, 20, rfl⟩
abbrev main_call0_v0 : Ref sig .tc := ⟨.hbm, 21, rfl⟩
abbrev main_v8 : Ref sig .tc := ⟨.hbm, 22, rfl⟩
abbrev main_cst : Ref sig .tc := ⟨.hbm, 23, rfl⟩
abbrev main_v9 : Ref sig .tc := ⟨.hbm, 24, rfl⟩
abbrev main_v10 : Ref sig .tc := ⟨.hbm, 25, rfl⟩
abbrev main_cst_0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_2 : Ref sig .tc := ⟨.hbm, 43, rfl⟩
abbrev main_v26 : Ref sig .tc := ⟨.hbm, 44, rfl⟩
abbrev main_v27 : Ref sig .tc := ⟨.hbm, 45, rfl⟩
abbrev main_cst_3 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_call1_cst : Ref sig .tc := ⟨.hbm, 50, rfl⟩
abbrev main_call1_v0 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_4 : Ref sig .tc := ⟨.hbm, 68, rfl⟩
abbrev main_v47 : Ref sig .tc := ⟨.hbm, 69, rfl⟩
abbrev main_v48 : Ref sig .tc := ⟨.hbm, 70, rfl⟩
abbrev main_cst_5 : Ref sig .tc := ⟨.hbm, 71, rfl⟩
abbrev main_v49 : Ref sig .tc := ⟨.hbm, 72, rfl⟩
abbrev main_v50 : Ref sig .tc := ⟨.hbm, 73, rfl⟩
abbrev main_cst_6 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩

abbrev nD : Nat := 1
abbrev τ : Topo := Topo.v7x

variable {F : FTy → Type} [FloatOps F]

class Facts₀ : Prop where
  concatenates_S4096x1024_S4096x2048_S4096x3072_d1 : Shape.Concatenates [S4096x1024, S4096x2048] S4096x3072 1
  transposes_S2048x3072_S3072x2048_1_0 : S2048x3072.Transposes [1, 0] S3072x2048
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  bcast_S_S4096x2048 : S_.BroadcastsInDim S4096x2048 (![] : Fin 0 → Fin S4096x2048.rank)
  dot_S4096x3072_S3072x2048_S4096x2048_1_0_0_1_n_n_wf : DotDims.WF S4096x3072 S3072x2048 S4096x2048 [1] [0] [0] [1] [] []

variable [Facts₀]

def dot_S4096x3072_S3072x2048_S4096x2048_1_0_0_1_n_n : DotDims S4096x3072 S3072x2048 S4096x2048 where
  lhsContracting := [1]
  rhsContracting := [0]
  lhsNonContracting := [0]
  rhsNonContracting := [1]
  lhsBatch := []
  rhsBatch := []
  wf := dot_S4096x3072_S3072x2048_S4096x2048_1_0_0_1_n_n_wf

class Facts : Prop extends Facts₀ where

variable [Facts]
-- ==== Proof.KRun.lean ====
/-
  THE KERNEL PROGRAM'S RUN, WITH ITS RESULTS NAMED.

  The program is two kernel launches among three stretches of host operations. Every weakly fair execution ends, and
  in the final memory every buffer holds what the fold through the program leaves there: the host operations'
  results, and for each launch its output arrays as the launch's write-backs leave them (`W4`). Stated here for the
  three result buffers and the twelve arguments; the arguments end as launched.
-/
import proofs.«148098_j13365938225768_2_alg».proof.Proof.Gen.KernelIdeal.Frame

set_option maxRecDepth 16384

noncomputable section

namespace Cert.KernelIdeal.RunAt

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each result buffer at the fold's contents and the arguments as launched. -/
theorem run : θ_run defs (onTc (τ := τ) (main (F := F))) ⟨m, fun _ => 0, ρ⟩ (fun r => ∀ c : Dev nD,
      r.2.mem ((c.tc : Thread nD τ).loc main_v28) = W4 m ρ c (Proc.devRef .tc main_v28)
      ∧ r.2.mem ((c.tc : Thread nD τ).loc main_v26_1) = W4 m ρ c (Proc.devRef .tc main_v26_1)
      ∧ r.2.mem ((c.tc : Thread nD τ).loc main_v26_0) = W4 m ρ c (Proc.devRef .tc main_v26_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v28 (by decide)),
       h c _ (mem_uc main_v26_1 (by decide)),
       h c _ (mem_uc main_v26_0 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunAt

end
-- ==== Proof.Cell.lean ====
/-
  THE CELL, ONE ENTRY AT A TIME.

  A recurrent cell with four gates, each a linear map of the row (x, h) of the inputs followed by a squashing
  function. Written for one row r and one hidden unit q, with every quantity an extended real:

    z_T, z_A, z_H  = the three gate pre-activations of (x, h): a sum over the 1024 entries of x's row plus a sum over
                     the 2048 entries of h's row plus the bias;
    t0   = max (tc + tanh z_T) 0 - 1            the time cell, pushed forward and clamped, minus one
    leap = 1 if t0 ≤ 0, else 0
    time = (1 - leap) · t0
    e    = leap · exc                            the energy released when the cell leaps
    exc' = max ((exc - e) + σ z_A) 0
    h_up = h · e                                 what the fourth gate sees in place of h
    z_E  = the same linear form of (x, h_up)
    h'   = tanh ((1 - σ z_H) · h + σ z_H · tanh z_E)

  A sum over the 3072 columns of the concatenated row (x | h) is the sum over x's 1024 columns plus the sum over h's
  2048 columns: the one law this file proves (`sum_cat`), valid in any commutative additive monoid, so that no
  finiteness of the inputs is ever used.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Cell

open Idealize.ShloMosaic

/-- The number one, as the float word both programs write it. -/
abbrev one : Ideal .f32 := Ideal.ofBits .f32 0x3F800000#32
/-- The number zero, as the float word both programs write it. -/
abbrev zero : Ideal .f32 := Ideal.ofBits .f32 0x00000000#32

/-- A gate's pre-activation: x's row against the first 1024 weights, h's row against the other 2048, plus the bias. -/
def lin (a : Fin 1024 → EReal) (b : Fin 2048 → EReal) (wa : Fin 1024 → EReal) (wb : Fin 2048 → EReal) (β : EReal) : Ideal .f32 :=
  FloatOps.addf (F := Ideal) (φ := .f32) (FloatOps.addf (F := Ideal) (φ := .f32) (∑ k : Fin 1024, a k * wa k) (∑ k : Fin 2048, b k * wb k)) β

/-- max (·) 0. -/
def relu (a : Ideal .f32) : Ideal .f32 := FloatOps.maximumf a zero

/-- The time cell pushed forward, clamped at zero, minus one. -/
def t0 (tc zT : Ideal .f32) : Ideal .f32 := FloatOps.subf (relu (FloatOps.addf tc (FloatOps.tanh zT))) one

/-- One where the pushed time cell is at most zero, zero elsewhere. -/
def leap (tc zT : Ideal .f32) : Ideal .f32 := FloatOps.uitofp .f32 (FloatOps.cmpf .ole (t0 tc zT) zero)

/-- The next time cell: kept where the cell does not leap, zero where it does. -/
def timeNext (tc zT : Ideal .f32) : Ideal .f32 := FloatOps.mulf (FloatOps.subf one (leap tc zT)) (t0 tc zT)

/-- The energy released by a leap. -/
def energy (tc zT exc : Ideal .f32) : Ideal .f32 := FloatOps.mulf (leap tc zT) exc

/-- The next excited cell. -/
def excited (tc zT exc zA : Ideal .f32) : Ideal .f32 :=
  relu (FloatOps.addf (FloatOps.subf exc (energy tc zT exc)) (FloatOps.logistic zA))

/-- The hidden state as the fourth gate sees it. -/
def hUp (h tc zT exc : Ideal .f32) : Ideal .f32 := FloatOps.mulf h (energy tc zT exc)

/-- The next hidden state. -/
def hNext (zH h zE : Ideal .f32) : Ideal .f32 :=
  FloatOps.tanh (FloatOps.addf (FloatOps.mulf (FloatOps.subf one (FloatOps.logistic zH)) h) (FloatOps.mulf (FloatOps.logistic zH) (FloatOps.tanh zE)))

/-- The logistic function as a host program spells it: one over one plus the exponential of the negation. -/
theorem logistic_spelt (z : Ideal .f32) :
    FloatOps.hostDivf one (FloatOps.addf one (FloatOps.hostUnary .exp (FloatOps.hostNegf z))) = FloatOps.logistic z := by
  show FloatOps.hostDivf (Ideal.ofBits .f32 0x3F800000#32) (FloatOps.addf (Ideal.ofBits .f32 0x3F800000#32) (FloatOps.hostUnary .exp (FloatOps.hostNegf z))) = _
  rw [Ideal.ofBits_one_f32]
  rfl

/-- A sum over the columns of two blocks laid side by side is the sum over the first block's columns plus the sum
    over the second's. -/
theorem sum_cat {α : Type*} [AddCommMonoid α] (f : Fin 3072 → α) :
    ∑ k : Fin 3072, f k = (∑ k : Fin 1024, f ⟨k.val, by omega⟩) + ∑ k : Fin 2048, f ⟨1024 + k.val, by omega⟩ := by
  have h := Fin.sum_univ_add (M := α) (a := 1024) (b := 2048) f
  exact h

end Cert.Cell

end
-- ==== Proof.LibPlainDot.lean ====
/-
  A PLAIN MATRIX PRODUCT'S CONTRACTION, RE-INDEXED.

  A dot of a matrix [M, K] with a matrix [K, N] that contracts the first one's columns against the second one's rows,
  with no batch axis — whatever the record that says so — sums, at result index (p, n), over a contraction index
  that is one coordinate `k < K`; the two operand indices there are (p, k) and (k, n). So a sum over the record's
  contraction indices is the sum over `k : Fin K` of the same summand at those two indices.
-/
import Idealize.ShloMosaic.PureOps.Ideal.Laws
import Idealize.ShloMosaic.Lib.ValueIdx

noncomputable section

open scoped BigOperators

namespace Cert.Lib

open Idealize.ShloMosaic Idealize.ShloMosaic.ValueIdx

variable {M K N : Nat} (d : DotDims ⟨2, ![M, K]⟩ ⟨2, ![K, N]⟩ ⟨2, ![M, N]⟩)

/-- The left operand's row coordinate is the result's row. -/
theorem lhsIdx_row (hln : d.lhsNonContracting = [0]) (hlb : d.lhsBatch = [])
    (j : (⟨2, ![M, N]⟩ : Shape).Idx) (k : d.contr.Idx) : (d.lhsIdx j k (0 : Fin 2)).val = (j (0 : Fin 2)).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln]; rfl)

/-- The right operand's column coordinate is the result's column. -/
theorem rhsIdx_col (hln : d.lhsNonContracting = [0]) (hrn : d.rhsNonContracting = [1]) (hlb : d.lhsBatch = [])
    (hrb : d.rhsBatch = []) (j : (⟨2, ![M, N]⟩ : Shape).Idx) (k : d.contr.Idx) :
    (d.rhsIdx j k (1 : Fin 2)).val = (j (1 : Fin 2)).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (a b : Nat) (ha : a < 2) (hb : b < 2), a = b → (j ⟨a, ha⟩).val = (j ⟨b, hb⟩).val := by
    intro a b ha hb e; subst e; rfl
  exact key _ _ _ _ (by rw [hlb, hln, hrn]; rfl)

/-- The contraction has one axis … -/
theorem contr_rank (hl : d.lhsContracting = [1]) : d.contr.rank = 1 := by rw [d.rank_contr, hl]; rfl

/-- … of extent `K`. -/
theorem contr_size (hl : d.lhsContracting = [1]) :
    d.contr.size ⟨0, by rw [contr_rank d hl]; exact Nat.one_pos⟩ = K := by
  have h0 : (0 : Nat) < d.lhsContracting.length := by rw [hl]; exact Nat.one_pos
  refine (d.size_contr 0 h0).trans ?_
  rw [List.getElem_of_eq hl h0]
  rfl

/-- THE SUM over a plain product's contraction indices is the sum over `k : Fin K`, the operands read at (p, k) and
    (k, n). Stated for any summand `f` of the two operand indices, so that it serves a kernel's `tpu.matmul`
    (Ideal.matmul_constant_zero_apply) and a host `dot_general` (Ideal.dotGeneral_apply) alike. -/
theorem sum_contr_plain {α : Type*} [AddCommMonoid α] (hl : d.lhsContracting = [1]) (hr : d.rhsContracting = [0])
    (hln : d.lhsNonContracting = [0]) (hrn : d.rhsNonContracting = [1]) (hlb : d.lhsBatch = []) (hrb : d.rhsBatch = [])
    (f : (⟨2, ![M, K]⟩ : Shape).Idx → (⟨2, ![K, N]⟩ : Shape).Idx → α) (p : Fin M) (n : Fin N) :
    ∑ k : d.contr.Idx, f (d.lhsIdx (ix2 p n) k) (d.rhsIdx (ix2 p n) k) = ∑ k : Fin K, f (ix2 p k) (ix2 k n) := by
  have hrk := contr_rank d hl
  have hs := contr_size d hl
  rw [← Equiv.sum_comp (contrEquiv1 d K hrk hs).symm]
  refine Finset.sum_congr rfl fun k _ => ?_
  have e1 : d.lhsIdx (ix2 p n) ((contrEquiv1 d K hrk hs).symm k) = ix2 p k := by
    funext a; apply Fin.ext
    match a with
    | ⟨0, _⟩ => exact lhsIdx_row d hln hlb _ _
    | ⟨1, _⟩ => exact (d.lhsIdx_val_of_single hl _ _).trans (contrEquiv1_symm_val d K hrk hs k)
  have e2 : d.rhsIdx (ix2 p n) ((contrEquiv1 d K hrk hs).symm k) = ix2 k n := by
    funext a; apply Fin.ext
    match a with
    | ⟨0, _⟩ => exact (d.rhsIdx_val_of_single hr _ _).trans (contrEquiv1_symm_val d K hrk hs k)
    | ⟨1, _⟩ => exact rhsIdx_col d hln hrn hlb hrb _ _
  rw [e1, e2]

end Cert.Lib

end
-- ==== Proof.LibRowReads.lean ====
/-
  READING A MATRIX PRODUCT AND A BROADCAST ROW AT AN ELEMENT.

  Two facts about [M, K] × [K, N] products with no batch axis, over the extended reals: a kernel's product into a zero
  accumulator, and a host program's dot, are both, at (r, q), the sum over k < K of left(r, k) · right(k, q) — for any
  record describing such a product. And three facts about a row vector: a [1, b] row re-laid as [b] and back as [1, b]
  and then repeated down a rows has, at (r, c), the row's entry c; the same for a [b] vector made a row and repeated;
  and a [1, b] row re-laid as [b] has, at c, the row's entry c. The host program's spellings of the same things are
  read too: a [b] vector broadcast to a [1, b] row and then down M rows; row o (slab o) of a stacked [n, b] ([n, a, b])
  parameter sliced out and re-laid as a vector (a matrix); the first k rows (slabs) of a stacked parameter; a scalar
  constant broadcast to any shape. Everything is generic in the sizes.
-/
import Idealize.ShloMosaic.PureOps.Ideal.Laws
import Idealize.ShloMosaic.Lib.ValueIdx
import Idealize.ShloMosaic.Lib.ValueLayout
import Idealize.ShloMosaic.Lib.KernelVsHost
import Idealize.ShloMosaic.Lib.IdealHost
import proofs.«148098_j13365938225768_2_alg».proof.Proof.LibPlainDot

noncomputable section

open scoped BigOperators

namespace Cert.Lib

open Idealize.ShloMosaic Idealize.ShloMosaic.ValueIdx

section Products

variable {M K N : Nat} (d : DotDims ⟨2, ![M, K]⟩ ⟨2, ![K, N]⟩ ⟨2, ![M, N]⟩)

/-- A kernel's matrix product into a zero accumulator, at (r, q): row r of the left operand against column q of the
    right one. -/
theorem matmul_zero_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    matmul d prec a b (constant (F := Ideal) ⟨2, ![M, N]⟩ .f32 0x00000000#32) (ix2 r q)
      = ∑ p : Fin K, a (ix2 r p) * b (ix2 p q) :=
  (Ideal.matmul_constant_zero_apply d prec a b (ix2 r q)).trans
    (sum_contr_plain d hl hr hln hrn hlb hrb (fun i j => a i * b j) r q)

/-- A host program's dot, at (r, q): the same sum. -/
theorem dotGeneral_at (hl : d.lhsContracting = [1]) (hr : d.rhsContracting = [0])
    (hln : d.lhsNonContracting = [0]) (hrn : d.rhsNonContracting = [1]) (hlb : d.lhsBatch = []) (hrb : d.rhsBatch = [])
    {φ₁ φ₂ : FTy} (prec : Option ContractPrecision) (a : FVec Ideal ⟨2, ![M, K]⟩ φ₁) (b : FVec Ideal ⟨2, ![K, N]⟩ φ₂)
    (r : Fin M) (q : Fin N) :
    Host.dotGeneral d prec a b (ix2 r q) = ∑ p : Fin K, a (ix2 r p) * b (ix2 p q) :=
  (Ideal.dotGeneral_apply d prec .single a b (ix2 r q)).trans
    (sum_contr_plain d hl hr hln hrn hlb hrb (fun i j => a i * b j) r q)

end Products

section Rows

variable {α : Type}

/-- A [1, b] row re-laid as [b], back as [1, b], and repeated down a rows: at (r, c), the row's entry c. -/
theorem bcast_row_apply {a b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩)
    (h3 : (⟨2, ![1, b]⟩ : Shape).Broadcasts ⟨2, ![a, b]⟩) (r : Fin a) (c : Fin b) :
    broadcastTo ⟨2, ![a, b]⟩ (shapeCast ⟨2, ![1, b]⟩ (shapeCast ⟨1, ![b]⟩ v h1) h2) h3 (ix2 r c) = v (ix2 (0 : Fin 1) c) := by
  rw [broadcastTo_1b_ab_apply, shapeCast_a_1a_apply, shapeCast_1a_a_apply]

/-- A [b] vector made a [1, b] row and repeated down a rows: at (r, c), the vector's entry c. -/
theorem bcast_vec_apply {a b : Nat} (v : (⟨1, ![b]⟩ : Shape).Idx → α)
    (h2 : (⟨1, ![b]⟩ : Shape).ShapeCasts ⟨2, ![1, b]⟩) (h3 : (⟨2, ![1, b]⟩ : Shape).Broadcasts ⟨2, ![a, b]⟩)
    (r : Fin a) (c : Fin b) :
    broadcastTo ⟨2, ![a, b]⟩ (shapeCast ⟨2, ![1, b]⟩ v h2) h3 (ix2 r c) = v (ix1 c) := by
  rw [broadcastTo_1b_ab_apply, shapeCast_a_1a_apply]

/-- A [1, b] row re-laid as [b] and back as [1, b]: at (0, c), the row's entry c. -/
theorem row_relaid_apply {b : Nat} (v : (⟨2, ![1, b]⟩ : Shape).Idx → α)
    (h1 : (⟨2, ![1, b]⟩ : Shape).ShapeCasts ⟨1, ![b]⟩) (h2 : (⟨1, ![b]⟩ : Shape).ShapeCasts ⟨2, ![1, b]⟩) (c : Fin b) :
    shapeCast ⟨2, ![1, b]⟩ (shapeCast ⟨1, ![b]⟩ v h1) h2 (ix2 (0 : Fin 1) c) = v (ix2 (0 : Fin 1) c) := by
  rw [shapeCast_a_1a_apply, shapeCast_1a_a_apply]

end Rows

section HostRows

variable {α : Type}

/-- A [b] vector broadcast along axis 1 to a [1, b] row: at (u, c), the vector's entry c. -/
theorem bcastInDim_vecRow_apply {b : Nat} (h : (⟨1, ![b]⟩ : Shape).BroadcastsInDim ⟨2, ![1, b]⟩ ![1])
    (x : (⟨1, ![b]⟩ : Shape).Idx → α) (u : Fin 1) (c : Fin b) :
    broadcastInDim ⟨2, ![1, b]⟩ ![1] h x (ix2 u c) = x (ix1 c) := by
  refine broadcastInDim_apply ![1] h x (ix2 u c) (ix1 c) ?_
  intro a
  match a with
  | ⟨0, _⟩ =>
    show c.val = if b = 1 then 0 else c.val
    split
    · have := c.isLt; omega
    · rfl

/-- A [b] vector broadcast to a [1, b] row and then down M rows: at (R, c), the vector's entry c. -/
theorem bcastInDim_vecRows_apply {M b : Nat} (h1 : (⟨1, ![b]⟩ : Shape).BroadcastsInDim ⟨2, ![1, b]⟩ ![1])
    (h2 : (⟨2, ![1, b]⟩ : Shape).BroadcastsInDim ⟨2, ![M, b]⟩ ![0, 1]) (x : (⟨1, ![b]⟩ : Shape).Idx → α)
    (R : Fin M) (c : Fin b) :
    broadcastInDim ⟨2, ![M, b]⟩ ![0, 1] h2 (broadcastInDim ⟨2, ![1, b]⟩ ![1] h1 x) (ix2 R c) = x (ix1 c) := by
  rw [broadcastInDim_oneRow_apply, bcastInDim_vecRow_apply]

/-- Row o of a stacked [n, b] parameter, sliced out as [1, b] and re-laid as [b]: at c, the parameter at (o, c). -/
theorem row_vec_apply {n b : Nat} (X : (⟨2, ![n, b]⟩ : Shape).Idx → α) (o : Nat) (ho : o < n)
    (hs : (⟨2, ![n, b]⟩ : Shape).Slices ![o, 0] ⟨2, ![1, b]⟩) (hc : (⟨2, ![1, b]⟩ : Shape).ShapeCasts ⟨1, ![b]⟩)
    (c : Fin b) :
    shapeCast ⟨1, ![b]⟩ (extractStridedSlice ⟨2, ![1, b]⟩ ![o, 0] X hs) hc (ix1 c) = X (ix2 (⟨o, ho⟩ : Fin n) c) := by
  rw [shapeCast_1a_a_apply]
  exact extractStridedSlice_apply _ X hs _ _ fun a => match a with
    | ⟨0, _⟩ => rfl
    | ⟨1, _⟩ => (Nat.zero_add _).symm

/-- Slab o of a stacked [n, a, b] parameter, sliced out as [1, a, b] and re-laid as [a, b]: at (p, q), the parameter
    at (o, p, q). -/
theorem slab_mat_apply {n a b : Nat} (X : (⟨3, ![n, a, b]⟩ : Shape).Idx → α) (o : Nat) (ho : o < n)
    (hs : (⟨3, ![n, a, b]⟩ : Shape).Slices ![o, 0, 0] ⟨3, ![1, a, b]⟩)
    (hc : (⟨3, ![1, a, b]⟩ : Shape).ShapeCasts ⟨2, ![a, b]⟩) (p : Fin a) (q : Fin b) :
    shapeCast ⟨2, ![a, b]⟩ (extractStridedSlice ⟨3, ![1, a, b]⟩ ![o, 0, 0] X hs) hc (ix2 p q)
      = X (ix3 (⟨o, ho⟩ : Fin n) p q) := by
  rw [shapeCast_1ab_ab_apply]
  exact extractStridedSlice_apply _ X hs _ _ fun ax => match ax with
    | ⟨0, _⟩ => rfl
    | ⟨1, _⟩ => (Nat.zero_add _).symm
    | ⟨2, _⟩ => (Nat.zero_add _).symm

/-- The first k slabs of a stacked [n, a, b] parameter: at (s, p, q), the parameter at (s, p, q). -/
theorem slabs_apply {n k a b : Nat} (X : (⟨3, ![n, a, b]⟩ : Shape).Idx → α) (hk : k ≤ n)
    (hs : (⟨3, ![n, a, b]⟩ : Shape).Slices ![0, 0, 0] ⟨3, ![k, a, b]⟩) (s : Fin k) (p : Fin a) (q : Fin b) :
    extractStridedSlice ⟨3, ![k, a, b]⟩ ![0, 0, 0] X hs (ix3 s p q) = X (ix3 (Fin.castLE hk s) p q) :=
  extractStridedSlice_apply _ X hs _ _ fun ax => match ax with
    | ⟨0, _⟩ => (Nat.zero_add _).symm
    | ⟨1, _⟩ => (Nat.zero_add _).symm
    | ⟨2, _⟩ => (Nat.zero_add _).symm

/-- The first k rows of a stacked [n, b] parameter: at (s, c), the parameter at (s, c). -/
theorem rows_apply {n k b : Nat} (X : (⟨2, ![n, b]⟩ : Shape).Idx → α) (hk : k ≤ n)
    (hs : (⟨2, ![n, b]⟩ : Shape).Slices ![0, 0] ⟨2, ![k, b]⟩) (s : Fin k) (c : Fin b) :
    extractStridedSlice ⟨2, ![k, b]⟩ ![0, 0] X hs (ix2 s c) = X (ix2 (Fin.castLE hk s) c) :=
  extractStridedSlice_apply _ X hs _ _ fun ax => match ax with
    | ⟨0, _⟩ => (Nat.zero_add _).symm
    | ⟨1, _⟩ => (Nat.zero_add _).symm

/-- A float constant broadcast from a scalar to any shape reads the constant's number everywhere. -/
theorem bcast_const_apply {T : Shape} {φ : FTy} (h : (⟨0, ![]⟩ : Shape).BroadcastsInDim T ![]) (w : BitVec φ.bits)
    (j : T.Idx) : broadcastInDim T ![] h (constant (F := Ideal) ⟨0, ![]⟩ φ w) j = Ideal.ofBits φ w :=
  broadcastInDim_scalar_apply h _ j

/-- The host's reciprocal square root of a vector, at an entry. -/
theorem hostRsqrt_apply {s : Shape} {φ : FTy} (a : FVec Ideal s φ) (i : s.Idx) :
    Host.rsqrt a i = Ideal.rsqrt (a i) := rfl

end HostRows

end Cert.Lib

end
-- ==== Proof.Body0.lean ====
/-
  THE FIRST KERNEL'S BODY, AT AN ENTRY.

  At one grid point the body holds 128 rows of x (1024 wide) and of h (2048 wide), the matching [128, 512] blocks of the
  excited cell and of the time cell, and 512 columns of the transposed halves of the time gate's and the absorb gate's
  weights with their bias rows. It stores three [128, 512] blocks: the next time cell, the next excited cell, and
  h · energy — for the last one it reads the 512 columns of the h block that belong to this column tile.
  Entry (p, q) of each is the cell's formula (Cell.lean) of the two gates' pre-activations at (p, q): row p of the x
  block against column q of the x-half, plus row p of the h block against column q of the h-half, plus the bias.
  The kernel turns the comparison's bit into a float by widening it to a word and converting signed; a bit read
  signed as a word is the bit read unsigned.
-/
import proofs.«148098_j13365938225768_2_alg».proof.Proof.Gen.KernelIdeal.Frame
import proofs.«148098_j13365938225768_2_alg».proof.Proof.Cell
import proofs.«148098_j13365938225768_2_alg».proof.Proof.LibRowReads
import Idealize.ShloMosaic.Lib.Pipeline.Value
import Idealize.ShloMosaic.Lib.ValueLayout
import Idealize.ShloMosaic.Lib.KernelVsHost
import Idealize.ShloMosaic.Lib.Tactic

noncomputable section

open scoped BigOperators

namespace Cert.KernelIdeal.Body0

open Cert.KernelIdeal Cert.KernelIdeal.Gen Idealize.ShloMosaic Idealize.ShloMosaic.ValueIdx Idealize.ShloMosaic.Tactic Cert.Cell

theorem hz : (![0, 0] : Fin 2 → Nat) = fun _ => 0 := funext fun a => by fin_cases a <;> rfl

section Pieces

variable {F : FTy → Type} [FloatOps F]

/-- The block of the next time cell the body leaves: its one covering store's payload, every load a whole buffer. -/
theorem out10_eq (c : Dev nD) (i : grid0.Coords) (arg2 : Memref sig .tc .vmem S128x1024 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1024x512 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S1x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .bf16) (harg14 : arg14.IsWhole)
    (x0 : Vec F S128x1024 .f32) (x1 : Vec F S128x2048 .f32) (x2 : Vec F S128x512 .f32) (x3 : Vec F S128x512 .f32) (x4 : Vec F S1024x512 .f32) (x5 : Vec F S2048x512 .f32) (x6 : Vec F S1x512 .f32) (x7 : Vec F S1024x512 .bf16) (x8 : Vec F S2048x512 .bf16) (x9 : Vec F S1x512 .f32) :
    out0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = k0_pay3 (k0_pay8 x0 x1 x4 x5 x6 x3) := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_run_names
  rw [View.canon_unit_zero hz]
  simp only [View.readAt_eq_ld, harg2.read_unread, harg3.read_unread, harg4.read_unread, harg5.read_unread, harg6.read_unread, harg7.read_unread,
    harg8.read_unread, harg9.read_unread, harg10.read_unread, harg11.read_unread, View.ld_unit_zero (S := S128x1024) hz, View.ld_unit_zero (S := S128x2048) hz,
    View.ld_unit_zero (S := S128x512) hz, View.ld_unit_zero (S := S1024x512) hz, View.ld_unit_zero (S := S2048x512) hz, View.ld_unit_zero (S := S1x512) hz]

/-- The block of the next excited cell. -/
theorem out11_eq (c : Dev nD) (i : grid0.Coords) (arg2 : Memref sig .tc .vmem S128x1024 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1024x512 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S1x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .bf16) (harg14 : arg14.IsWhole)
    (x0 : Vec F S128x1024 .f32) (x1 : Vec F S128x2048 .f32) (x2 : Vec F S128x512 .f32) (x3 : Vec F S128x512 .f32) (x4 : Vec F S1024x512 .f32) (x5 : Vec F S2048x512 .f32) (x6 : Vec F S1x512 .f32) (x7 : Vec F S1024x512 .bf16) (x8 : Vec F S2048x512 .bf16) (x9 : Vec F S1x512 .f32) :
    out0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 = k0_pay5 (k0_pay7 x0 x1 x7 x8 x9) x2 (k0_pay8 x0 x1 x4 x5 x6 x3) := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_run_names
  rw [View.canon_unit_zero hz]
  simp only [View.readAt_eq_ld, harg2.read_unread, harg3.read_unread, harg4.read_unread, harg5.read_unread, harg6.read_unread, harg7.read_unread,
    harg8.read_unread, harg9.read_unread, harg10.read_unread, harg11.read_unread, View.ld_unit_zero (S := S128x1024) hz, View.ld_unit_zero (S := S128x2048) hz,
    View.ld_unit_zero (S := S128x512) hz, View.ld_unit_zero (S := S1024x512) hz, View.ld_unit_zero (S := S2048x512) hz, View.ld_unit_zero (S := S1x512) hz]

/-- The block of h · energy: the h block's columns of this tile, read through a rectangle at the tile's offset. -/
theorem out12_eq (c : Dev nD) (i : grid0.Coords) (arg2 : Memref sig .tc .vmem S128x1024 .f32) (harg2 : arg2.IsWhole) (arg3 : Memref sig .tc .vmem S128x2048 .f32) (harg3 : arg3.IsWhole) (arg4 : Memref sig .tc .vmem S128x512 .f32) (harg4 : arg4.IsWhole) (arg5 : Memref sig .tc .vmem S128x512 .f32) (harg5 : arg5.IsWhole) (arg6 : Memref sig .tc .vmem S1024x512 .f32) (harg6 : arg6.IsWhole) (arg7 : Memref sig .tc .vmem S2048x512 .f32) (harg7 : arg7.IsWhole) (arg8 : Memref sig .tc .vmem S1x512 .f32) (harg8 : arg8.IsWhole) (arg9 : Memref sig .tc .vmem S1024x512 .bf16) (harg9 : arg9.IsWhole) (arg10 : Memref sig .tc .vmem S2048x512 .bf16) (harg10 : arg10.IsWhole) (arg11 : Memref sig .tc .vmem S1x512 .f32) (harg11 : arg11.IsWhole) (arg12 : Memref sig .tc .vmem S128x512 .f32) (harg12 : arg12.IsWhole) (arg13 : Memref sig .tc .vmem S128x512 .f32) (harg13 : arg13.IsWhole) (arg14 : Memref sig .tc .vmem S128x512 .bf16) (harg14 : arg14.IsWhole)
    (x0 : Vec F S128x1024 .f32) (x1 : Vec F S128x2048 .f32) (x2 : Vec F S128x512 .f32) (x3 : Vec F S128x512 .f32) (x4 : Vec F S1024x512 .f32) (x5 : Vec F S2048x512 .f32) (x6 : Vec F S1x512 .f32) (x7 : Vec F S1024x512 .bf16) (x8 : Vec F S2048x512 .bf16) (x9 : Vec F S1x512 .f32) :
    out0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9
      = k0_pay6 x2 (k0_pay8 x0 x1 x4 x5 x6 x3) (View.ld x1 (Rect.unit (s := S128x2048) (k0_off1 i) S128x512.size (k0_off1_inb i))) := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9)]
  unfold kernelRun0_A
  dsimp only
  sl_unfold_run_names
  rw [View.canon_unit_zero hz]
  simp only [View.readAt_eq_ld, harg2.read_unread, harg3.read_unread, harg4.read_unread, harg5.read_unread, harg6.read_unread, harg7.read_unread,
    harg8.read_unread, harg9.read_unread, harg10.read_unread, harg11.read_unread, View.ld_unit_zero (S := S128x1024) hz, View.ld_unit_zero (S := S128x2048) hz,
    View.ld_unit_zero (S := S128x512) hz, View.ld_unit_zero (S := S1024x512) hz, View.ld_unit_zero (S := S2048x512) hz, View.ld_unit_zero (S := S1x512) hz]

end Pieces

/-! ## The payloads at an entry, over the extended reals -/

/-- The column offset the body computes for its tile is 512 times the tile's number. -/
theorem off1_val : ∀ a : Fin 4, (Scalar.indexCast (Scalar.muli (BitVec.ofNat 32 a.val) 512#32) : Index).toNat = 512 * a.val := by decide

/-- The h block read through the tile's rectangle, at (p, q): the h block at (p, 512·tile + q). -/
theorem tile_read (i : grid0.Coords) (x1 : Vec Ideal S128x2048 .f32) (p : Fin 128) (q : Fin 512) :
    View.ld x1 (Rect.unit (s := S128x2048) (k0_off1 i) S128x512.size (k0_off1_inb i)) (ix2 p q)
      = x1 (ix2 p (⟨512 * (i 0).val + q.val, by have := (i 0).isLt; have h : (i 0).val < 4 := this; omega⟩ : Fin 2048)) := by
  show x1 ((Rect.unit (s := S128x2048) (k0_off1 i) S128x512.size (k0_off1_inb i)).idx (ix2 p q)) = _
  refine congrArg x1 (funext fun a => Fin.ext ?_)
  match a with
  | ⟨0, _⟩ => show k0_off1 i 0 + 1 * p.val = p.val; show 0 + 1 * p.val = p.val; omega
  | ⟨1, _⟩ =>
    show k0_off1 i 1 + 1 * q.val = 512 * (i 0).val + q.val
    have h := off1_val (i 0)
    show (Scalar.indexCast (Scalar.muli (BitVec.ofNat 32 (i 0).val) 512#32) : Index).toNat + 1 * q.val = _
    rw [h]; omega

/-- The time gate's pushed and clamped time cell at (p, q). -/
theorem pay8_at (x0 : Vec Ideal S128x1024 .f32) (x1 : Vec Ideal S128x2048 .f32) (x4 : Vec Ideal S1024x512 .f32) (x5 : Vec Ideal S2048x512 .f32)
    (x6 : Vec Ideal S1x512 .f32) (x3 : Vec Ideal S128x512 .f32) (p : Fin 128) (q : Fin 512) :
    k0_pay8 x0 x1 x4 x5 x6 x3 (ix2 p q)
      = relu (FloatOps.addf (x3 (ix2 p q)) (FloatOps.tanh
          (lin (fun k => x0 (ix2 p k)) (fun k => x1 (ix2 p k)) (fun k => x4 (ix2 k q)) (fun k => x5 (ix2 k q)) (x6 (ix2 (0 : Fin 1) q))))) := by
  unfold k0_pay8
  simp only [shapeCast_self]
  show relu (FloatOps.addf (x3 (ix2 p q)) (FloatOps.tanh (FloatOps.addf (FloatOps.addf
      (matmul dot_S128x1024_S1024x512_S128x512_1_0_0_1_n_n (some .fp32) x0 x4 (constant (F := Ideal) S128x512 .f32 0x00000000#32) (ix2 p q))
      (matmul dot_S128x2048_S2048x512_S128x512_1_0_0_1_n_n (some .fp32) x1 x5 (constant (F := Ideal) S128x512 .f32 0x00000000#32) (ix2 p q)))
      (broadcastTo S128x512 x6 broadcasts_S1x512_S128x512 (ix2 p q))))) = _
  rw [Cert.Lib.matmul_zero_at dot_S128x1024_S1024x512_S128x512_1_0_0_1_n_n rfl rfl rfl rfl rfl rfl (some .fp32) x0 x4 p q,
    Cert.Lib.matmul_zero_at dot_S128x2048_S2048x512_S128x512_1_0_0_1_n_n rfl rfl rfl rfl rfl rfl (some .fp32) x1 x5 p q,
    broadcastTo_1b_ab_apply]
  rfl

/-- The absorb gate at (p, q). -/
theorem pay7_at (x0 : Vec Ideal S128x1024 .f32) (x1 : Vec Ideal S128x2048 .f32) (x7 : Vec Ideal S1024x512 .bf16) (x8 : Vec Ideal S2048x512 .bf16)
    (x9 : Vec Ideal S1x512 .f32) (p : Fin 128) (q : Fin 512) :
    k0_pay7 x0 x1 x7 x8 x9 (ix2 p q)
      = FloatOps.logistic (lin (fun k => x0 (ix2 p k)) (fun k => x1 (ix2 p k)) (fun k => x7 (ix2 k q)) (fun k => x8 (ix2 k q)) (x9 (ix2 (0 : Fin 1) q))) := by
  unfold k0_pay7
  simp only [shapeCast_self]
  show FloatOps.logistic (FloatOps.addf (FloatOps.addf
      (matmul dot_S128x1024_S1024x512_S128x512_1_0_0_1_n_n none (truncf .bf16 x0 bitsLt_bf16_f32) x7 (constant (F := Ideal) S128x512 .f32 0x00000000#32) (ix2 p q))
      (matmul dot_S128x2048_S2048x512_S128x512_1_0_0_1_n_n none (truncf .bf16 x1 bitsLt_bf16_f32) x8 (constant (F := Ideal) S128x512 .f32 0x00000000#32) (ix2 p q)))
      (broadcastTo S128x512 x9 broadcasts_S1x512_S128x512 (ix2 p q))) = _
  rw [Cert.Lib.matmul_zero_at dot_S128x1024_S1024x512_S128x512_1_0_0_1_n_n rfl rfl rfl rfl rfl rfl none (truncf .bf16 x0 bitsLt_bf16_f32) x7 p q,
    Cert.Lib.matmul_zero_at dot_S128x2048_S2048x512_S128x512_1_0_0_1_n_n rfl rfl rfl rfl rfl rfl none (truncf .bf16 x1 bitsLt_bf16_f32) x8 p q,
    broadcastTo_1b_ab_apply]
  rfl

/-- The pointwise tail of the body at one entry j: from the clamped time cell max (tc + tanh z) 0 and the absorb
    gate σ zA there, the three stored values are the cell's next time cell, next excited cell and h · energy. -/
theorem tail_at (v27 v32 : FVec Ideal S128x512 .f32) (v29 v50 : Vec Ideal S128x512 .f32) (j : S128x512.Idx) (tc z zA : Ideal .f32)
    (h32 : v32 j = relu (FloatOps.addf tc (FloatOps.tanh z))) (h27 : v27 j = FloatOps.logistic zA) :
    k0_pay3 v32 j = timeNext tc z ∧ k0_pay5 v27 v29 v32 j = excited tc z (v29 j) zA ∧ k0_pay6 v29 v32 v50 j = hUp (v50 j) tc z (v29 j) := by
  have h1 : k0_pay1 v32 j = t0 tc z := by
    show FloatOps.subf (v32 j) _ = _
    rw [h32]; rfl
  have h2 : k0_pay2 v32 j = leap tc z := by
    unfold k0_pay2
    show (sitofp .f32 (extui 32 (cmpf .ole (k0_pay1 v32) (broadcast S128x512 (Scalar.ofBits (F := Ideal) .f32 0x00000000#32))) natLt_1_32) : FVec Ideal S128x512 .f32) j = _
    rw [sitofp_extui_eq_uitofp]
    show FloatOps.uitofp .f32 (FloatOps.cmpf .ole (k0_pay1 v32 j) _) = _
    rw [h1]; rfl
  have h4 : k0_pay4 v29 v32 j = energy tc z (v29 j) := by
    show FloatOps.mulf (k0_pay2 v32 j) (v29 j) = _
    rw [h2]; rfl
  refine ⟨?_, ?_, ?_⟩
  · show FloatOps.mulf (FloatOps.subf _ (k0_pay2 v32 j)) (k0_pay1 v32 j) = _
    rw [h2, h1]; rfl
  · show FloatOps.maximumf (FloatOps.addf (FloatOps.subf (v29 j) (k0_pay4 v29 v32 j)) (v27 j)) _ = _
    rw [h4, h27]; rfl
  · show FloatOps.mulf (v50 j) (k0_pay4 v29 v32 j) = _
    rw [h4]; rfl

end Cert.KernelIdeal.Body0

end
-- ==== Proof.Arr0.lean ====
/-
  THE FIRST KERNEL'S THREE RESULT ARRAYS, FROM THEIR 128 BLOCKS.

  The grid is 4 column tiles by 32 row blocks; point t is column tile t / 32 and row block t mod 32. It stages rows
  128·(t mod 32) … of x, h, the excited cell and the time cell (the last two only in columns 512·(t / 32) …), and
  columns 512·(t / 32) … of the two gates' transposed weight halves and bias rows; it writes back the [128, 512] blocks
  at that row block and column tile of the three results. By the body's values at an entry (Body0.lean) each block
  written back is the restriction of ONE function of the ten arrays the region finds (`TN0`, `EX0`, `HU0`); the 128
  blocks cover each array.
-/
import proofs.«148098_j13365938225768_2_alg».proof.Proof.Body0

set_option maxRecDepth 16384

noncomputable section

open scoped BigOperators

namespace Cert.KernelIdeal.Arr0

open Cert.KernelIdeal Cert.KernelIdeal.Gen Idealize.ShloMosaic Idealize.ShloMosaic.TcCoe Idealize.ShloMosaic.ValueIdx Idealize.SL.Sem Cert.Cell
open Idealize.ShloMosaic.Pipeline (Dat)

/-- A gate's pre-activation at (r, q) from the arrays as the first kernel reads them: x, h, the gate's transposed
    weight halves and its bias row. -/
def gate0 (A0 : S4096x1024.Idx → Ideal .f32) (A1 : S4096x2048.Idx → Ideal .f32) (Wx : S1024x2048.Idx → EReal) (Wh : S2048x2048.Idx → EReal)
    (b : S1x2048.Idx → Ideal .f32) (r : Fin 4096) (q : Fin 2048) : Ideal .f32 :=
  lin (fun k => A0 (ix2 r k)) (fun k => A1 (ix2 r k)) (fun k => Wx (ix2 k q)) (fun k => Wh (ix2 k q)) (b (ix2 (0 : Fin 1) q))

/-- The next time cell. -/
def TN0 (A0 : S4096x1024.Idx → Ideal .f32) (A1 A2 A3 : S4096x2048.Idx → Ideal .f32) (A4 : S1024x2048.Idx → Ideal .f32) (A5 : S2048x2048.Idx → Ideal .f32)
    (A6 : S1x2048.Idx → Ideal .f32) (A7 : S1024x2048.Idx → Ideal .bf16) (A8 : S2048x2048.Idx → Ideal .bf16) (A9 : S1x2048.Idx → Ideal .f32) : S4096x2048.Idx → Ideal .f32 :=
  fun i => timeNext (A3 i) (gate0 A0 A1 A4 A5 A6 (i 0) (i 1))
/-- The next excited cell. -/
def EX0 (A0 : S4096x1024.Idx → Ideal .f32) (A1 A2 A3 : S4096x2048.Idx → Ideal .f32) (A4 : S1024x2048.Idx → Ideal .f32) (A5 : S2048x2048.Idx → Ideal .f32)
    (A6 : S1x2048.Idx → Ideal .f32) (A7 : S1024x2048.Idx → Ideal .bf16) (A8 : S2048x2048.Idx → Ideal .bf16) (A9 : S1x2048.Idx → Ideal .f32) : S4096x2048.Idx → Ideal .f32 :=
  fun i => excited (A3 i) (gate0 A0 A1 A4 A5 A6 (i 0) (i 1)) (A2 i) (gate0 A0 A1 A7 A8 A9 (i 0) (i 1))
/-- h times the released energy. -/
def HU0 (A0 : S4096x1024.Idx → Ideal .f32) (A1 A2 A3 : S4096x2048.Idx → Ideal .f32) (A4 : S1024x2048.Idx → Ideal .f32) (A5 : S2048x2048.Idx → Ideal .f32)
    (A6 : S1x2048.Idx → Ideal .f32) (A7 : S1024x2048.Idx → Ideal .bf16) (A8 : S2048x2048.Idx → Ideal .bf16) (A9 : S1x2048.Idx → Ideal .f32) : S4096x2048.Idx → Ideal .bf16 :=
  fun i => hUp (A1 i) (A3 i) (gate0 A0 A1 A4 A5 A6 (i 0) (i 1)) (A2 i)

/-- A block at row offset R and column offset C: the body's three values at (p, q) are the three functions at
    (R + p, C + q). `v50` is the h block's columns C … C + 511. -/
theorem block_at (A0 : S4096x1024.Idx → Ideal .f32) (A1 A2 A3 : S4096x2048.Idx → Ideal .f32) (A4 : S1024x2048.Idx → Ideal .f32) (A5 : S2048x2048.Idx → Ideal .f32)
    (A6 : S1x2048.Idx → Ideal .f32) (A7 : S1024x2048.Idx → Ideal .bf16) (A8 : S2048x2048.Idx → Ideal .bf16) (A9 : S1x2048.Idx → Ideal .f32)
    (x0 : Vec Ideal S128x1024 .f32) (x1 : Vec Ideal S128x2048 .f32) (x2 : Vec Ideal S128x512 .f32) (x3 : Vec Ideal S128x512 .f32) (x4 : Vec Ideal S1024x512 .f32) (x5 : Vec Ideal S2048x512 .f32) (x6 : Vec Ideal S1x512 .f32) (x7 : Vec Ideal S1024x512 .bf16) (x8 : Vec Ideal S2048x512 .bf16) (x9 : Vec Ideal S1x512 .f32) (v50 : Vec Ideal S128x512 .f32)
    (R C : Nat) (hR : R + 128 ≤ 4096) (hC : C + 512 ≤ 2048)
    (h0 : ∀ (p : Fin 128) (k : Fin 1024), x0 (ix2 p k) = A0 (ix2 (⟨R + p.val, by omega⟩ : Fin 4096) k))
    (h1 : ∀ (p : Fin 128) (k : Fin 2048), x1 (ix2 p k) = A1 (ix2 (⟨R + p.val, by omega⟩ : Fin 4096) k))
    (h2 : ∀ (p : Fin 128) (q : Fin 512), x2 (ix2 p q) = A2 (ix2 (⟨R + p.val, by omega⟩ : Fin 4096) (⟨C + q.val, by omega⟩ : Fin 2048)))
    (h3 : ∀ (p : Fin 128) (q : Fin 512), x3 (ix2 p q) = A3 (ix2 (⟨R + p.val, by omega⟩ : Fin 4096) (⟨C + q.val, by omega⟩ : Fin 2048)))
    (h4 : ∀ (k : Fin 1024) (q : Fin 512), x4 (ix2 k q) = A4 (ix2 k (⟨C + q.val, by omega⟩ : Fin 2048)))
    (h5 : ∀ (k : Fin 2048) (q : Fin 512), x5 (ix2 k q) = A5 (ix2 k (⟨C + q.val, by omega⟩ : Fin 2048)))
    (h6 : ∀ (q : Fin 512), x6 (ix2 (0 : Fin 1) q) = A6 (ix2 (0 : Fin 1) (⟨C + q.val, by omega⟩ : Fin 2048)))
    (h7 : ∀ (k : Fin 1024) (q : Fin 512), x7 (ix2 k q) = A7 (ix2 k (⟨C + q.val, by omega⟩ : Fin 2048)))
    (h8 : ∀ (k : Fin 2048) (q : Fin 512), x8 (ix2 k q) = A8 (ix2 k (⟨C + q.val, by omega⟩ : Fin 2048)))
    (h9 : ∀ (q : Fin 512), x9 (ix2 (0 : Fin 1) q) = A9 (ix2 (0 : Fin 1) (⟨C + q.val, by omega⟩ : Fin 2048)))
    (hv : ∀ (p : Fin 128) (q : Fin 512), v50 (ix2 p q) = x1 (ix2 p (⟨C + q.val, by omega⟩ : Fin 2048)))
    (p : Fin 128) (q : Fin 512) :
    k0_pay3 (k0_pay8 x0 x1 x4 x5 x6 x3) (ix2 p q)
        = TN0 A0 A1 A2 A3 A4 A5 A6 A7 A8 A9 (ix2 (⟨R + p.val, by omega⟩ : Fin 4096) (⟨C + q.val, by omega⟩ : Fin 2048))
    ∧ k0_pay5 (k0_pay7 x0 x1 x7 x8 x9) x2 (k0_pay8 x0 x1 x4 x5 x6 x3) (ix2 p q)
        = EX0 A0 A1 A2 A3 A4 A5 A6 A7 A8 A9 (ix2 (⟨R + p.val, by omega⟩ : Fin 4096) (⟨C + q.val, by omega⟩ : Fin 2048))
    ∧ k0_pay6 x2 (k0_pay8 x0 x1 x4 x5 x6 x3) v50 (ix2 p q)
        = HU0 A0 A1 A2 A3 A4 A5 A6 A7 A8 A9 (ix2 (⟨R + p.val, by omega⟩ : Fin 4096) (⟨C + q.val, by omega⟩ : Fin 2048)) := by
  obtain ⟨t1, t2, t3⟩ := Body0.tail_at (k0_pay7 x0 x1 x7 x8 x9) (k0_pay8 x0 x1 x4 x5 x6 x3) x2 v50 (ix2 p q) (x3 (ix2 p q))
    (lin (fun k => x0 (ix2 p k)) (fun k => x1 (ix2 p k)) (fun k => x4 (ix2 k q)) (fun k => x5 (ix2 k q)) (x6 (ix2 (0 : Fin 1) q)))
    (lin (fun k => x0 (ix2 p k)) (fun k => x1 (ix2 p k)) (fun k => x7 (ix2 k q)) (fun k => x8 (ix2 k q)) (x9 (ix2 (0 : Fin 1) q)))
    (Body0.pay8_at x0 x1 x4 x5 x6 x3 p q) (Body0.pay7_at x0 x1 x7 x8 x9 p q)
  refine ⟨t1.trans ?_, t2.trans ?_, t3.trans ?_⟩
  · unfold TN0 gate0
    simp only [h0, h1, h3, h4, h5, h6]
  · unfold EX0 gate0
    simp only [h0, h1, h2, h3, h4, h5, h6, h7, h8, h9]
  · unfold HU0 gate0
    simp only [hv, h0, h1, h2, h3, h4, h5, h6]

variable (V : (c : Dev nD) → (b : Ref sig .tc) → Buf (Elt Ideal) ((c : Thread nD τ).loc b))

/-- The printed index maps over the grid, and the column tile's number as the body reads it. -/
theorem idx_facts : ∀ t : Fin cfg0.N,
    win0_0.index t (0 : Fin 2) = t.val % 32
    ∧ win0_0.index t (1 : Fin 2) = 0
    ∧ win0_1.index t (0 : Fin 2) = t.val % 32
    ∧ win0_1.index t (1 : Fin 2) = 0
    ∧ win0_2.index t (0 : Fin 2) = t.val % 32
    ∧ win0_2.index t (1 : Fin 2) = t.val / 32
    ∧ win0_3.index t (0 : Fin 2) = t.val % 32
    ∧ win0_3.index t (1 : Fin 2) = t.val / 32
    ∧ win0_4.index t (0 : Fin 2) = 0
    ∧ win0_4.index t (1 : Fin 2) = t.val / 32
    ∧ win0_5.index t (0 : Fin 2) = 0
    ∧ win0_5.index t (1 : Fin 2) = t.val / 32
    ∧ win0_6.index t (0 : Fin 2) = 0
    ∧ win0_6.index t (1 : Fin 2) = t.val / 32
    ∧ win0_7.index t (0 : Fin 2) = 0
    ∧ win0_7.index t (1 : Fin 2) = t.val / 32
    ∧ win0_8.index t (0 : Fin 2) = 0
    ∧ win0_8.index t (1 : Fin 2) = t.val / 32
    ∧ win0_9.index t (0 : Fin 2) = 0
    ∧ win0_9.index t (1 : Fin 2) = t.val / 32
    ∧ win0_10.index t (0 : Fin 2) = t.val % 32
    ∧ win0_10.index t (1 : Fin 2) = t.val / 32
    ∧ win0_11.index t (0 : Fin 2) = t.val % 32
    ∧ win0_11.index t (1 : Fin 2) = t.val / 32
    ∧ win0_12.index t (0 : Fin 2) = t.val % 32
    ∧ win0_12.index t (1 : Fin 2) = t.val / 32
    ∧ (grid0.coords t (0 : Fin 2)).val = t.val / 32 :=
  (by decide +kernel : ∀ t : Fin grid0.N, _)

/-- The three result arrays as functions of the ten arrays the region finds. -/
abbrev res10 (c : Dev nD) : S4096x2048.Idx → Ideal .f32 := TN0 (V c main_arg0) (V c main_arg1) (V c main_arg2) (V c main_arg3) (V c main_v1) (V c main_v3) (V c main_v22) (V c main_v6) (V c main_v9) (V c main_v23)
abbrev res11 (c : Dev nD) : S4096x2048.Idx → Ideal .f32 := EX0 (V c main_arg0) (V c main_arg1) (V c main_arg2) (V c main_arg3) (V c main_v1) (V c main_v3) (V c main_v22) (V c main_v6) (V c main_v9) (V c main_v23)
abbrev res12 (c : Dev nD) : S4096x2048.Idx → Ideal .bf16 := HU0 (V c main_arg0) (V c main_arg1) (V c main_arg2) (V c main_arg3) (V c main_v1) (V c main_v3) (V c main_v22) (V c main_v6) (V c main_v9) (V c main_v23)

/-- At point t the body's three values at (p, q) are the three functions at (128·(t mod 32) + p, 512·(t / 32) + q). -/
theorem point_at (c : Dev nD) (t : Fin cfg0.N) (p : Fin 128) (q : Fin 512) :
    (have hN : t.val < 128 := lt_of_lt_of_eq t.isLt N_0
    k0_pay3 (k0_pay8 (iblk0 V c 0 t) (iblk0 V c 1 t) (iblk0 V c 4 t) (iblk0 V c 5 t) (iblk0 V c 6 t) (iblk0 V c 3 t)) (ix2 p q)
        = res10 V c (ix2 (⟨128 * (t.val % 32) + p.val, by omega⟩ : Fin 4096) (⟨512 * (t.val / 32) + q.val, by omega⟩ : Fin 2048))
    ∧ k0_pay5 (k0_pay7 (iblk0 V c 0 t) (iblk0 V c 1 t) (iblk0 V c 7 t) (iblk0 V c 8 t) (iblk0 V c 9 t)) (iblk0 V c 2 t) (k0_pay8 (iblk0 V c 0 t) (iblk0 V c 1 t) (iblk0 V c 4 t) (iblk0 V c 5 t) (iblk0 V c 6 t) (iblk0 V c 3 t)) (ix2 p q)
        = res11 V c (ix2 (⟨128 * (t.val % 32) + p.val, by omega⟩ : Fin 4096) (⟨512 * (t.val / 32) + q.val, by omega⟩ : Fin 2048))
    ∧ k0_pay6 (iblk0 V c 2 t) (k0_pay8 (iblk0 V c 0 t) (iblk0 V c 1 t) (iblk0 V c 4 t) (iblk0 V c 5 t) (iblk0 V c 6 t) (iblk0 V c 3 t)) (View.ld (iblk0 V c 1 t) (Rect.unit (s := S128x2048) (k0_off1 (grid0.coords t)) S128x512.size (k0_off1_inb (grid0.coords t)))) (ix2 p q)
        = res12 V c (ix2 (⟨128 * (t.val % 32) + p.val, by omega⟩ : Fin 4096) (⟨512 * (t.val / 32) + q.val, by omega⟩ : Fin 2048))) := by
  intro hN
  obtain ⟨e0a, e0b, e1a, e1b, e2a, e2b, e3a, e3b, e4a, e4b, e5a, e5b, e6a, e6b, e7a, e7b, e8a, e8b, e9a, e9b, e10a, e10b, e11a, e11b, e12a, e12b, ec⟩ := idx_facts t
  refine block_at (V c main_arg0) (V c main_arg1) (V c main_arg2) (V c main_arg3) (V c main_v1) (V c main_v3) (V c main_v22) (V c main_v6) (V c main_v9) (V c main_v23)
    (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (View.ld (iblk0 V c 1 t) (Rect.unit (s := S128x2048) (k0_off1 (grid0.coords t)) S128x512.size (k0_off1_inb (grid0.coords t))))
    (128 * (t.val % 32)) (512 * (t.val / 32)) (by omega) (by omega) ?_ ?_ ?_ ?_ ?_ ?_ ?_ ?_ ?_ ?_ ?_ p q
  · intro p k
    show V c main_arg0 (((cfg0.win 0).blk t).view.emb (ix2 p k)) = _
    refine congrArg _ (funext fun a => Fin.ext ?_)
    match a with
    | ⟨0, _⟩ => show win0_0.index t (0 : Fin 2) * 128 + 1 * p.val = 128 * (t.val % 32) + p.val; omega
    | ⟨1, _⟩ => show win0_0.index t (1 : Fin 2) * 1024 + 1 * k.val = k.val; omega
  · intro p k
    show V c main_arg1 (((cfg0.win 1).blk t).view.emb (ix2 p k)) = _
    refine congrArg _ (funext fun a => Fin.ext ?_)
    match a with
    | ⟨0, _⟩ => show win0_1.index t (0 : Fin 2) * 128 + 1 * p.val = 128 * (t.val % 32) + p.val; omega
    | ⟨1, _⟩ => show win0_1.index t (1 : Fin 2) * 2048 + 1 * k.val = k.val; omega
  · intro p q
    show V c main_arg2 (((cfg0.win 2).blk t).view.emb (ix2 p q)) = _
    refine congrArg _ (funext fun a => Fin.ext ?_)
    match a with
    | ⟨0, _⟩ => show win0_2.index t (0 : Fin 2) * 128 + 1 * p.val = 128 * (t.val % 32) + p.val; omega
    | ⟨1, _⟩ => show win0_2.index t (1 : Fin 2) * 512 + 1 * q.val = 512 * (t.val / 32) + q.val; omega
  · intro p q
    show V c main_arg3 (((cfg0.win 3).blk t).view.emb (ix2 p q)) = _
    refine congrArg _ (funext fun a => Fin.ext ?_)
    match a with
    | ⟨0, _⟩ => show win0_3.index t (0 : Fin 2) * 128 + 1 * p.val = 128 * (t.val % 32) + p.val; omega
    | ⟨1, _⟩ => show win0_3.index t (1 : Fin 2) * 512 + 1 * q.val = 512 * (t.val / 32) + q.val; omega
  · intro k q
    show V c main_v1 (((cfg0.win 4).blk t).view.emb (ix2 k q)) = _
    refine congrArg _ (funext fun a => Fin.ext ?_)
    match a with
    | ⟨0, _⟩ => show win0_4.index t (0 : Fin 2) * 1024 + 1 * k.val = k.val; omega
    | ⟨1, _⟩ => show win0_4.index t (1 : Fin 2) * 512 + 1 * q.val = 512 * (t.val / 32) + q.val; omega
  · intro k q
    show V c main_v3 (((cfg0.win 5).blk t).view.emb (ix2 k q)) = _
    refine congrArg _ (funext fun a => Fin.ext ?_)
    match a with
    | ⟨0, _⟩ => show win0_5.index t (0 : Fin 2) * 2048 + 1 * k.val = k.val; omega
    | ⟨1, _⟩ => show win0_5.index t (1 : Fin 2) * 512 + 1 * q.val = 512 * (t.val / 32) + q.val; omega
  · intro q
    show V c main_v22 (((cfg0.win 6).blk t).view.emb (ix2 (0 : Fin 1) q)) = _
    refine congrArg _ (funext fun a => Fin.ext ?_)
    match a with
    | ⟨0, _⟩ => show win0_6.index t (0 : Fin 2) * 1 + 1 * 0 = 0; omega
    | ⟨1, _⟩ => show win0_6.index t (1 : Fin 2) * 512 + 1 * q.val = 512 * (t.val / 32) + q.val; omega
  · intro k q
    show V c main_v6 (((cfg0.win 7).blk t).view.emb (ix2 k q)) = _
    refine congrArg _ (funext fun a => Fin.ext ?_)
    match a with
    | ⟨0, _⟩ => show win0_7.index t (0 : Fin 2) * 1024 + 1 * k.val = k.val; omega
    | ⟨1, _⟩ => show win0_7.index t (1 : Fin 2) * 512 + 1 * q.val = 512 * (t.val / 32) + q.val; omega
  · intro k q
    show V c main_v9 (((cfg0.win 8).blk t).view.emb (ix2 k q)) = _
    refine congrArg _ (funext fun a => Fin.ext ?_)
    match a with
    | ⟨0, _⟩ => show win0_8.index t (0 : Fin 2) * 2048 + 1 * k.val = k.val; omega
    | ⟨1, _⟩ => show win0_8.index t (1 : Fin 2) * 512 + 1 * q.val = 512 * (t.val / 32) + q.val; omega
  · intro q
    show V c main_v23 (((cfg0.win 9).blk t).view.emb (ix2 (0 : Fin 1) q)) = _
    refine congrArg _ (funext fun a => Fin.ext ?_)
    match a with
    | ⟨0, _⟩ => show win0_9.index t (0 : Fin 2) * 1 + 1 * 0 = 0; omega
    | ⟨1, _⟩ => show win0_9.index t (1 : Fin 2) * 512 + 1 * q.val = 512 * (t.val / 32) + q.val; omega
  · intro p q
    rw [Body0.tile_read]
    refine congrArg _ (congrArg (ix2 p) (Fin.ext ?_))
    show 512 * (grid0.coords t (0 : Fin 2)).val + q.val = 512 * (t.val / 32) + q.val
    rw [ec]

/-- What point t writes back through output window 10. -/
theorem flushed10_eq (c : Dev nD) (t : Fin cfg0.N) :
    (dat0 V c).flushed 10 t = ((cfg0.win 10).blk t).view.read (Elt Ideal) (res10 V c) := by
  show (cfg0.win 10).cut (grid0.coords t) ((dat0 V c).after 10 t) = _
  rw [after0_10]
  unfold outsAt0
  dsimp only
  rw [Body0.out10_eq]
  have hN : t.val < 128 := lt_of_lt_of_eq t.isLt N_0
  obtain ⟨e0a, e0b, e1a, e1b, e2a, e2b, e3a, e3b, e4a, e4b, e5a, e5b, e6a, e6b, e7a, e7b, e8a, e8b, e9a, e9b, e10a, e10b, e11a, e11b, e12a, e12b, ec⟩ := idx_facts t
  funext j
  obtain ⟨p, q, rfl⟩ : ∃ (p : Fin 128) (q : Fin 512), j = ix2 p q := ⟨j 0, j 1, eq_ix2 j⟩
  show k0_pay3 (k0_pay8 (iblk0 V c 0 t) (iblk0 V c 1 t) (iblk0 V c 4 t) (iblk0 V c 5 t) (iblk0 V c 6 t) (iblk0 V c 3 t)) (ix2 p q) = res10 V c (((cfg0.win 10).blk t).view.emb (ix2 p q))
  have hemb : ((cfg0.win 10).blk t).view.emb (ix2 p q) = ix2 (⟨128 * (t.val % 32) + p.val, by omega⟩ : Fin 4096) (⟨512 * (t.val / 32) + q.val, by omega⟩ : Fin 2048) := by
    funext a; apply Fin.ext
    match a with
    | ⟨0, _⟩ => show win0_10.index t (0 : Fin 2) * 128 + 1 * p.val = 128 * (t.val % 32) + p.val; omega
    | ⟨1, _⟩ => show win0_10.index t (1 : Fin 2) * 512 + 1 * q.val = 512 * (t.val / 32) + q.val; omega
  rw [hemb]
  exact (point_at V c t p q).1

/-- What point t writes back through output window 11. -/
theorem flushed11_eq (c : Dev nD) (t : Fin cfg0.N) :
    (dat0 V c).flushed 11 t = ((cfg0.win 11).blk t).view.read (Elt Ideal) (res11 V c) := by
  show (cfg0.win 11).cut (grid0.coords t) ((dat0 V c).after 11 t) = _
  rw [after0_11]
  unfold outsAt0
  dsimp only
  rw [Body0.out11_eq]
  have hN : t.val < 128 := lt_of_lt_of_eq t.isLt N_0
  obtain ⟨e0a, e0b, e1a, e1b, e2a, e2b, e3a, e3b, e4a, e4b, e5a, e5b, e6a, e6b, e7a, e7b, e8a, e8b, e9a, e9b, e10a, e10b, e11a, e11b, e12a, e12b, ec⟩ := idx_facts t
  funext j
  obtain ⟨p, q, rfl⟩ : ∃ (p : Fin 128) (q : Fin 512), j = ix2 p q := ⟨j 0, j 1, eq_ix2 j⟩
  show k0_pay5 (k0_pay7 (iblk0 V c 0 t) (iblk0 V c 1 t) (iblk0 V c 7 t) (iblk0 V c 8 t) (iblk0 V c 9 t)) (iblk0 V c 2 t) (k0_pay8 (iblk0 V c 0 t) (iblk0 V c 1 t) (iblk0 V c 4 t) (iblk0 V c 5 t) (iblk0 V c 6 t) (iblk0 V c 3 t)) (ix2 p q) = res11 V c (((cfg0.win 11).blk t).view.emb (ix2 p q))
  have hemb : ((cfg0.win 11).blk t).view.emb (ix2 p q) = ix2 (⟨128 * (t.val % 32) + p.val, by omega⟩ : Fin 4096) (⟨512 * (t.val / 32) + q.val, by omega⟩ : Fin 2048) := by
    funext a; apply Fin.ext
    match a with
    | ⟨0, _⟩ => show win0_11.index t (0 : Fin 2) * 128 + 1 * p.val = 128 * (t.val % 32) + p.val; omega
    | ⟨1, _⟩ => show win0_11.index t (1 : Fin 2) * 512 + 1 * q.val = 512 * (t.val / 32) + q.val; omega
  rw [hemb]
  exact (point_at V c t p q).2.1

/-- What point t writes back through output window 12. -/
theorem flushed12_eq (c : Dev nD) (t : Fin cfg0.N) :
    (dat0 V c).flushed 12 t = ((cfg0.win 12).blk t).view.read (Elt Ideal) (res12 V c) := by
  show (cfg0.win 12).cut (grid0.coords t) ((dat0 V c).after 12 t) = _
  rw [after0_12]
  unfold outsAt0
  dsimp only
  rw [Body0.out12_eq]
  have hN : t.val < 128 := lt_of_lt_of_eq t.isLt N_0
  obtain ⟨e0a, e0b, e1a, e1b, e2a, e2b, e3a, e3b, e4a, e4b, e5a, e5b, e6a, e6b, e7a, e7b, e8a, e8b, e9a, e9b, e10a, e10b, e11a, e11b, e12a, e12b, ec⟩ := idx_facts t
  funext j
  obtain ⟨p, q, rfl⟩ : ∃ (p : Fin 128) (q : Fin 512), j = ix2 p q := ⟨j 0, j 1, eq_ix2 j⟩
  show k0_pay6 (iblk0 V c 2 t) (k0_pay8 (iblk0 V c 0 t) (iblk0 V c 1 t) (iblk0 V c 4 t) (iblk0 V c 5 t) (iblk0 V c 6 t) (iblk0 V c 3 t)) (View.ld (iblk0 V c 1 t) (Rect.unit (s := S128x2048) (k0_off1 (grid0.coords t)) S128x512.size (k0_off1_inb (grid0.coords t)))) (ix2 p q) = res12 V c (((cfg0.win 12).blk t).view.emb (ix2 p q))
  have hemb : ((cfg0.win 12).blk t).view.emb (ix2 p q) = ix2 (⟨128 * (t.val % 32) + p.val, by omega⟩ : Fin 4096) (⟨512 * (t.val / 32) + q.val, by omega⟩ : Fin 2048) := by
    funext a; apply Fin.ext
    match a with
    | ⟨0, _⟩ => show win0_12.index t (0 : Fin 2) * 128 + 1 * p.val = 128 * (t.val % 32) + p.val; omega
    | ⟨1, _⟩ => show win0_12.index t (1 : Fin 2) * 512 + 1 * q.val = 512 * (t.val / 32) + q.val; omega
  rw [hemb]
  exact (point_at V c t p q).2.2

/-- The three output windows' block indices alone. -/
theorem out_idx : ∀ t : Fin cfg0.N,
    win0_10.index t (0 : Fin 2) = t.val % 32 ∧ win0_10.index t (1 : Fin 2) = t.val / 32
    ∧ win0_11.index t (0 : Fin 2) = t.val % 32 ∧ win0_11.index t (1 : Fin 2) = t.val / 32
    ∧ win0_12.index t (0 : Fin 2) = t.val % 32 ∧ win0_12.index t (1 : Fin 2) = t.val / 32 :=
  (by decide +kernel : ∀ t : Fin grid0.N, _)

theorem mem_blk10 (t : Fin cfg0.N) (i : S4096x2048.Idx) :
    i ∈ ((cfg0.win 10).blk t).view.set ↔ ∀ a : Fin 2, win0_10.index t a * S128x512.size a ≤ (i a).val ∧ (i a).val < win0_10.index t a * S128x512.size a + S128x512.size a := by
  show i ∈ ((View.whole main_v26_0).slice (win0_10.rect t)).set ↔ _
  rw [View.set_slice_whole, Rect.mem_set_unit]
  exact Iff.rfl
theorem mem_blk11 (t : Fin cfg0.N) (i : S4096x2048.Idx) :
    i ∈ ((cfg0.win 11).blk t).view.set ↔ ∀ a : Fin 2, win0_11.index t a * S128x512.size a ≤ (i a).val ∧ (i a).val < win0_11.index t a * S128x512.size a + S128x512.size a := by
  show i ∈ ((View.whole main_v26_1).slice (win0_11.rect t)).set ↔ _
  rw [View.set_slice_whole, Rect.mem_set_unit]
  exact Iff.rfl
theorem mem_blk12 (t : Fin cfg0.N) (i : S4096x2048.Idx) :
    i ∈ ((cfg0.win 12).blk t).view.set ↔ ∀ a : Fin 2, win0_12.index t a * S128x512.size a ≤ (i a).val ∧ (i a).val < win0_12.index t a * S128x512.size a + S128x512.size a := by
  show i ∈ ((View.whole main_v26_2).slice (win0_12.rect t)).set ↔ _
  rw [View.set_slice_whole, Rect.mem_set_unit]
  exact Iff.rfl

/-- The array behind output window 10 after the region. -/
theorem final10 (c : Dev nD) : (dat0 V c).arrAt 10 cfg0.N = res10 V c :=
  (dat0 V c).arrAt_eq_of_cover 10 (res10 V c) (fun t _ => flushed10_eq V c t) fun i => by
    have hi0 : (i 0).val < 4096 := (i 0).isLt
    have hi1 : (i 1).val < 2048 := (i 1).isLt
    have hN : cfg0.N = 128 := N_0
    let t : Fin cfg0.N := ⟨(i 1).val / 512 * 32 + (i 0).val / 128, by rw [hN]; omega⟩
    have ht : t.val = (i 1).val / 512 * 32 + (i 0).val / 128 := rfl
    obtain ⟨e10a, e10b, -, -, -, -⟩ := out_idx t
    refine ⟨t, flush0_10 t, ?_⟩
    rw [mem_blk10]
    intro a
    match a with
    | ⟨0, _⟩ => show win0_10.index t (0 : Fin 2) * 128 ≤ (i 0).val ∧ (i 0).val < win0_10.index t (0 : Fin 2) * 128 + 128
                rw [e10a, ht]; omega
    | ⟨1, _⟩ => show win0_10.index t (1 : Fin 2) * 512 ≤ (i 1).val ∧ (i 1).val < win0_10.index t (1 : Fin 2) * 512 + 512
                rw [e10b, ht]; omega

/-- The array behind output window 11 after the region. -/
theorem final11 (c : Dev nD) : (dat0 V c).arrAt 11 cfg0.N = res11 V c :=
  (dat0 V c).arrAt_eq_of_cover 11 (res11 V c) (fun t _ => flushed11_eq V c t) fun i => by
    have hi0 : (i 0).val < 4096 := (i 0).isLt
    have hi1 : (i 1).val < 2048 := (i 1).isLt
    have hN : cfg0.N = 128 := N_0
    let t : Fin cfg0.N := ⟨(i 1).val / 512 * 32 + (i 0).val / 128, by rw [hN]; omega⟩
    have ht : t.val = (i 1).val / 512 * 32 + (i 0).val / 128 := rfl
    obtain ⟨-, -, e11a, e11b, -, -⟩ := out_idx t
    refine ⟨t, flush0_11 t, ?_⟩
    rw [mem_blk11]
    intro a
    match a with
    | ⟨0, _⟩ => show win0_11.index t (0 : Fin 2) * 128 ≤ (i 0).val ∧ (i 0).val < win0_11.index t (0 : Fin 2) * 128 + 128
                rw [e11a, ht]; omega
    | ⟨1, _⟩ => show win0_11.index t (1 : Fin 2) * 512 ≤ (i 1).val ∧ (i 1).val < win0_11.index t (1 : Fin 2) * 512 + 512
                rw [e11b, ht]; omega

/-- The array behind output window 12 after the region. -/
theorem final12 (c : Dev nD) : (dat0 V c).arrAt 12 cfg0.N = res12 V c :=
  (dat0 V c).arrAt_eq_of_cover 12 (res12 V c) (fun t _ => flushed12_eq V c t) fun i => by
    have hi0 : (i 0).val < 4096 := (i 0).isLt
    have hi1 : (i 1).val < 2048 := (i 1).isLt
    have hN : cfg0.N = 128 := N_0
    let t : Fin cfg0.N := ⟨(i 1).val / 512 * 32 + (i 0).val / 128, by rw [hN]; omega⟩
    have ht : t.val = (i 1).val / 512 * 32 + (i 0).val / 128 := rfl
    obtain ⟨-, -, -, -, e12a, e12b⟩ := out_idx t
    refine ⟨t, flush0_12 t, ?_⟩
    rw [mem_blk12]
    intro a
    match a with
    | ⟨0, _⟩ => show win0_12.index t (0 : Fin 2) * 128 ≤ (i 0).val ∧ (i 0).val < win0_12.index t (0 : Fin 2) * 128 + 128
                rw [e12a, ht]; omega
    | ⟨1, _⟩ => show win0_12.index t (1 : Fin 2) * 512 ≤ (i 1).val ∧ (i 1).val < win0_12.index t (1 : Fin 2) * 512 + 512
                rw [e12b, ht]; omega

end Cert.KernelIdeal.Arr0

end
-- ==== Proof.Body1.lean ====
/-
  THE SECOND KERNEL'S BODY, AT AN ENTRY.

  At one grid point the body holds a block of 128 rows: x's (1024 wide), h · energy's and h's (2048 wide), and the
  whole transposed halves of the two gates' weights ([1024, 2048] and [2048, 2048]) and their bias rows. It stores one
  [128, 2048] block. Entry (p, q) of that block is the cell's next hidden state of the two gates' pre-activations:
  row p of the x block against column q of the x-half plus row p of the h-block against column q of the h-half plus
  the bias row's entry q (each product a sum over the contracted axis, into a zero accumulator).
-/
import proofs.«148098_j13365938225768_2_alg».proof.Proof.Gen.KernelIdeal.Frame
import proofs.«148098_j13365938225768_2_alg».proof.Proof.Cell
import proofs.«148098_j13365938225768_2_alg».proof.Proof.LibRowReads
import Idealize.ShloMosaic.Lib.Pipeline.Value
import Idealize.ShloMosaic.Lib.ValueLayout

noncomputable section

open scoped BigOperators

namespace Cert.KernelIdeal.Body1

open Cert.KernelIdeal Cert.KernelIdeal.Gen Idealize.ShloMosaic Idealize.ShloMosaic.ValueIdx Cert.Cell

theorem hz : (![0, 0] : Fin 2 → Nat) = fun _ => 0 := funext fun a => by fin_cases a <;> rfl

variable {F : FTy → Type} [FloatOps F]

/-- The one store covers the output block, and every load reads a whole buffer: the block the body leaves is its
    payload of the input blocks. -/
theorem out_eq (x0 : Vec F S128x1024 .bf16) (x1 : Vec F S128x2048 .bf16) (x2 : Vec F S128x2048 .f32) (x3 : Vec F S1024x2048 .bf16)
    (x4 : Vec F S2048x2048 .bf16) (x5 : Vec F S1x2048 .f32) (x6 : Vec F S1024x2048 .bf16) (x7 : Vec F S2048x2048 .bf16)
    (x8 : Vec F S1x2048 .f32) :
    out1_9 x0 x1 x2 x3 x4 x5 x6 x7 x8 = k1_pay1 x0 x1 x2 x3 x4 x5 x6 x7 x8 := by
  unfold out1_9
  rw [View.canon_unit_zero hz]
  simp only [View.ld_unit_zero (S := S128x1024) hz, View.ld_unit_zero (S := S128x2048) hz, View.ld_unit_zero (S := S1024x2048) hz,
    View.ld_unit_zero (S := S2048x2048) hz, View.ld_unit_zero (S := S1x2048) hz]

/-- The payload at entry (p, q). -/
theorem pay_at (x0 : Vec Ideal S128x1024 .bf16) (x1 : Vec Ideal S128x2048 .bf16) (x2 : Vec Ideal S128x2048 .f32)
    (x3 : Vec Ideal S1024x2048 .bf16) (x4 : Vec Ideal S2048x2048 .bf16) (x5 : Vec Ideal S1x2048 .f32)
    (x6 : Vec Ideal S1024x2048 .bf16) (x7 : Vec Ideal S2048x2048 .bf16) (x8 : Vec Ideal S1x2048 .f32)
    (p : Fin 128) (q : Fin 2048) :
    k1_pay1 x0 x1 x2 x3 x4 x5 x6 x7 x8 (ix2 p q)
      = hNext (lin (fun k => x0 (ix2 p k)) (fun k => x2 (ix2 p k)) (fun k => x6 (ix2 k q)) (fun k => x7 (ix2 k q)) (x8 (ix2 (0 : Fin 1) q)))
          (x2 (ix2 p q))
          (lin (fun k => x0 (ix2 p k)) (fun k => x1 (ix2 p k)) (fun k => x3 (ix2 k q)) (fun k => x4 (ix2 k q)) (x5 (ix2 (0 : Fin 1) q))) := by
  unfold k1_pay1
  simp only [shapeCast_self]
  show hNext
      (FloatOps.addf (FloatOps.addf
        (matmul dot_S128x1024_S1024x2048_S128x2048_1_0_0_1_n_n none x0 x6 (constant (F := Ideal) S128x2048 .f32 0x00000000#32) (ix2 p q))
        (matmul dot_S128x2048_S2048x2048_S128x2048_1_0_0_1_n_n none (truncf .bf16 x2 bitsLt_bf16_f32) x7 (constant (F := Ideal) S128x2048 .f32 0x00000000#32) (ix2 p q)))
        (broadcastTo S128x2048 x8 broadcasts_S1x2048_S128x2048 (ix2 p q)))
      (x2 (ix2 p q))
      (FloatOps.addf (FloatOps.addf
        (matmul dot_S128x1024_S1024x2048_S128x2048_1_0_0_1_n_n none x0 x3 (constant (F := Ideal) S128x2048 .f32 0x00000000#32) (ix2 p q))
        (matmul dot_S128x2048_S2048x2048_S128x2048_1_0_0_1_n_n none x1 x4 (constant (F := Ideal) S128x2048 .f32 0x00000000#32) (ix2 p q)))
        (broadcastTo S128x2048 x5 broadcasts_S1x2048_S128x2048 (ix2 p q))) = _
  rw [Cert.Lib.matmul_zero_at dot_S128x1024_S1024x2048_S128x2048_1_0_0_1_n_n rfl rfl rfl rfl rfl rfl none x0 x6 p q,
    Cert.Lib.matmul_zero_at dot_S128x2048_S2048x2048_S128x2048_1_0_0_1_n_n rfl rfl rfl rfl rfl rfl none (truncf .bf16 x2 bitsLt_bf16_f32) x7 p q,
    Cert.Lib.matmul_zero_at dot_S128x1024_S1024x2048_S128x2048_1_0_0_1_n_n rfl rfl rfl rfl rfl rfl none x0 x3 p q,
    Cert.Lib.matmul_zero_at dot_S128x2048_S2048x2048_S128x2048_1_0_0_1_n_n rfl rfl rfl rfl rfl rfl none x1 x4 p q,
    broadcastTo_1b_ab_apply, broadcastTo_1b_ab_apply]
  rfl

end Cert.KernelIdeal.Body1

end
-- ==== Proof.Arr1.lean ====
/-
  THE SECOND KERNEL'S RESULT ARRAY, FROM ITS 32 BLOCKS.

  Grid point t stages rows 128·t … 128·t + 127 of x, of h · energy and of h, and the whole of the six weight and bias
  arrays; it writes back rows 128·t … 128·t + 127 of the result. By the body's value at an entry (Body1.lean) the
  block written back is the restriction to those rows of ONE function `G1` of the nine arrays the region finds; the
  32 row blocks cover the array, so the array ends at `G1`.
-/
import proofs.«148098_j13365938225768_2_alg».proof.Proof.Body1

set_option maxRecDepth 16384

noncomputable section

open scoped BigOperators

namespace Cert.KernelIdeal.Arr1

open Cert.KernelIdeal Cert.KernelIdeal.Gen Idealize.ShloMosaic Idealize.ShloMosaic.TcCoe Idealize.ShloMosaic.ValueIdx Idealize.SL.Sem Cert.Cell
open Idealize.ShloMosaic.Pipeline (Dat)

/-- The next hidden state at every entry, from the arrays as the second kernel reads them: x (A0), h · energy (A1), h (A2),
    the state gate's transposed weight halves and bias row (A3, A4, A5) and the mixing gate's (A6, A7, A8). -/
def G1 (A0 : S4096x1024.Idx → Ideal .bf16) (A1 : S4096x2048.Idx → Ideal .bf16) (A2 : S4096x2048.Idx → Ideal .f32)
    (A3 : S1024x2048.Idx → Ideal .bf16) (A4 : S2048x2048.Idx → Ideal .bf16) (A5 : S1x2048.Idx → Ideal .f32)
    (A6 : S1024x2048.Idx → Ideal .bf16) (A7 : S2048x2048.Idx → Ideal .bf16) (A8 : S1x2048.Idx → Ideal .f32) :
    S4096x2048.Idx → Ideal .f32 :=
  fun i => hNext
    (lin (fun k => A0 (ix2 (i 0) k)) (fun k => A2 (ix2 (i 0) k)) (fun k => A6 (ix2 k (i 1))) (fun k => A7 (ix2 k (i 1))) (A8 (ix2 (0 : Fin 1) (i 1))))
    (A2 i)
    (lin (fun k => A0 (ix2 (i 0) k)) (fun k => A1 (ix2 (i 0) k)) (fun k => A3 (ix2 k (i 1))) (fun k => A4 (ix2 k (i 1))) (A5 (ix2 (0 : Fin 1) (i 1))))

/-- A block of 128 rows starting at row R: the body's value at (p, q) is `G1` at (R + p, q). -/
theorem block_at (A0 : S4096x1024.Idx → Ideal .bf16) (A1 : S4096x2048.Idx → Ideal .bf16) (A2 : S4096x2048.Idx → Ideal .f32)
    (A3 : S1024x2048.Idx → Ideal .bf16) (A4 : S2048x2048.Idx → Ideal .bf16) (A5 : S1x2048.Idx → Ideal .f32)
    (A6 : S1024x2048.Idx → Ideal .bf16) (A7 : S2048x2048.Idx → Ideal .bf16) (A8 : S1x2048.Idx → Ideal .f32)
    (x0 : Vec Ideal S128x1024 .bf16) (x1 : Vec Ideal S128x2048 .bf16) (x2 : Vec Ideal S128x2048 .f32)
    (x3 : Vec Ideal S1024x2048 .bf16) (x4 : Vec Ideal S2048x2048 .bf16) (x5 : Vec Ideal S1x2048 .f32)
    (x6 : Vec Ideal S1024x2048 .bf16) (x7 : Vec Ideal S2048x2048 .bf16) (x8 : Vec Ideal S1x2048 .f32)
    (R : Nat) (hR : R + 128 ≤ 4096)
    (h0 : ∀ (p : Fin 128) (k : Fin 1024), x0 (ix2 p k) = A0 (ix2 (⟨R + p.val, by omega⟩ : Fin 4096) k))
    (h1 : ∀ (p : Fin 128) (k : Fin 2048), x1 (ix2 p k) = A1 (ix2 (⟨R + p.val, by omega⟩ : Fin 4096) k))
    (h2 : ∀ (p : Fin 128) (k : Fin 2048), x2 (ix2 p k) = A2 (ix2 (⟨R + p.val, by omega⟩ : Fin 4096) k))
    (h3 : ∀ (k : Fin 1024) (q : Fin 2048), x3 (ix2 k q) = A3 (ix2 k q))
    (h4 : ∀ (k : Fin 2048) (q : Fin 2048), x4 (ix2 k q) = A4 (ix2 k q))
    (h5 : ∀ (q : Fin 2048), x5 (ix2 (0 : Fin 1) q) = A5 (ix2 (0 : Fin 1) q))
    (h6 : ∀ (k : Fin 1024) (q : Fin 2048), x6 (ix2 k q) = A6 (ix2 k q))
    (h7 : ∀ (k : Fin 2048) (q : Fin 2048), x7 (ix2 k q) = A7 (ix2 k q))
    (h8 : ∀ (q : Fin 2048), x8 (ix2 (0 : Fin 1) q) = A8 (ix2 (0 : Fin 1) q))
    (p : Fin 128) (q : Fin 2048) :
    k1_pay1 x0 x1 x2 x3 x4 x5 x6 x7 x8 (ix2 p q) = G1 A0 A1 A2 A3 A4 A5 A6 A7 A8 (ix2 (⟨R + p.val, by omega⟩ : Fin 4096) q) := by
  rw [Body1.pay_at]
  unfold G1
  simp only [h0, h1, h2, h3, h4, h5, h6, h7, h8]

variable (V : (c : Dev nD) → (b : Ref sig .tc) → Buf (Elt Ideal) ((c : Thread nD τ).loc b))

/-- The printed index maps over the grid: the three row-blocked inputs and the output sit at row block t, the six
    parameter arrays at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0
    ∧ win1_9.index t (0 : Fin 2) = t.val ∧ win1_9.index t (1 : Fin 2) = 0 :=
  (by decide +kernel : ∀ t : Fin grid1.N, _)

/-- The region's result array as one function of the nine arrays it finds. -/
abbrev result (c : Dev nD) : S4096x2048.Idx → Ideal .f32 :=
  G1 (V c main_v27) (V c main_v26_2) (V c main_arg1) (V c main_v12) (V c main_v15) (V c main_v24) (V c main_v18) (V c main_v21) (V c main_v25)

/-- What point t writes back is rows 128·t … of that function. -/
theorem flushed_eq (c : Dev nD) (t : Fin cfg1.N) :
    (dat1 V c).flushed 9 t = ((cfg1.win 9).blk t).view.read (Elt Ideal) (result V c) := by
  show (cfg1.win 9).cut (grid1.coords t) ((dat1 V c).after 9 t) = _
  rw [after1_9, Body1.out_eq]
  have hN : t.val < 32 := lt_of_lt_of_eq t.isLt N_1
  obtain ⟨e00, e01, e10, e11, e20, e21, e30, e31, e40, e41, e50, e51, e60, e61, e70, e71, e80, e81, e90, e91⟩ := idx_facts t
  funext j
  obtain ⟨p, q, rfl⟩ : ∃ (p : Fin 128) (q : Fin 2048), j = ix2 p q := ⟨j 0, j 1, eq_ix2 j⟩
  show k1_pay1 (iblk1 V c 0 t) (iblk1 V c 1 t) (iblk1 V c 2 t) (iblk1 V c 3 t) (iblk1 V c 4 t) (iblk1 V c 5 t) (iblk1 V c 6 t)
      (iblk1 V c 7 t) (iblk1 V c 8 t) (ix2 p q) = result V c (((cfg1.win 9).blk t).view.emb (ix2 p q))
  have hemb : ((cfg1.win 9).blk t).view.emb (ix2 p q) = ix2 (⟨128 * t.val + p.val, by omega⟩ : Fin 4096) q := by
    funext a; apply Fin.ext
    match a with
    | ⟨0, _⟩ => show win1_9.index t (0 : Fin 2) * 128 + 1 * p.val = 128 * t.val + p.val; omega
    | ⟨1, _⟩ => show win1_9.index t (1 : Fin 2) * 2048 + 1 * q.val = q.val; omega
  rw [hemb]
  refine block_at (V c main_v27) (V c main_v26_2) (V c main_arg1) (V c main_v12) (V c main_v15) (V c main_v24) (V c main_v18)
    (V c main_v21) (V c main_v25) (iblk1 V c 0 t) (iblk1 V c 1 t) (iblk1 V c 2 t) (iblk1 V c 3 t) (iblk1 V c 4 t) (iblk1 V c 5 t)
    (iblk1 V c 6 t) (iblk1 V c 7 t) (iblk1 V c 8 t) (128 * t.val) (by omega) ?_ ?_ ?_ ?_ ?_ ?_ ?_ ?_ ?_ p q
  · intro p k
    show V c main_v27 (((cfg1.win 0).blk t).view.emb (ix2 p k)) = _
    refine congrArg _ (funext fun a => Fin.ext ?_)
    match a with
    | ⟨0, _⟩ => show win1_0.index t (0 : Fin 2) * 128 + 1 * p.val = 128 * t.val + p.val; omega
    | ⟨1, _⟩ => show win1_0.index t (1 : Fin 2) * 1024 + 1 * k.val = k.val; omega
  · intro p k
    show V c main_v26_2 (((cfg1.win 1).blk t).view.emb (ix2 p k)) = _
    refine congrArg _ (funext fun a => Fin.ext ?_)
    match a with
    | ⟨0, _⟩ => show win1_1.index t (0 : Fin 2) * 128 + 1 * p.val = 128 * t.val + p.val; omega
    | ⟨1, _⟩ => show win1_1.index t (1 : Fin 2) * 2048 + 1 * k.val = k.val; omega
  · intro p k
    show V c main_arg1 (((cfg1.win 2).blk t).view.emb (ix2 p k)) = _
    refine congrArg _ (funext fun a => Fin.ext ?_)
    match a with
    | ⟨0, _⟩ => show win1_2.index t (0 : Fin 2) * 128 + 1 * p.val = 128 * t.val + p.val; omega
    | ⟨1, _⟩ => show win1_2.index t (1 : Fin 2) * 2048 + 1 * k.val = k.val; omega
  · intro k q
    show V c main_v12 (((cfg1.win 3).blk t).view.emb (ix2 k q)) = _
    refine congrArg _ (funext fun a => Fin.ext ?_)
    match a with
    | ⟨0, _⟩ => show win1_3.index t (0 : Fin 2) * 1024 + 1 * k.val = k.val; omega
    | ⟨1, _⟩ => show win1_3.index t (1 : Fin 2) * 2048 + 1 * q.val = q.val; omega
  · intro k q
    show V c main_v15 (((cfg1.win 4).blk t).view.emb (ix2 k q)) = _
    refine congrArg _ (funext fun a => Fin.ext ?_)
    match a with
    | ⟨0, _⟩ => show win1_4.index t (0 : Fin 2) * 2048 + 1 * k.val = k.val; omega
    | ⟨1, _⟩ => show win1_4.index t (1 : Fin 2) * 2048 + 1 * q.val = q.val; omega
  · intro q
    show V c main_v24 (((cfg1.win 5).blk t).view.emb (ix2 (0 : Fin 1) q)) = _
    refine congrArg _ (funext fun a => Fin.ext ?_)
    match a with
    | ⟨0, _⟩ => show win1_5.index t (0 : Fin 2) * 1 + 1 * 0 = 0; omega
    | ⟨1, _⟩ => show win1_5.index t (1 : Fin 2) * 2048 + 1 * q.val = q.val; omega
  · intro k q
    show V c main_v18 (((cfg1.win 6).blk t).view.emb (ix2 k q)) = _
    refine congrArg _ (funext fun a => Fin.ext ?_)
    match a with
    | ⟨0, _⟩ => show win1_6.index t (0 : Fin 2) * 1024 + 1 * k.val = k.val; omega
    | ⟨1, _⟩ => show win1_6.index t (1 : Fin 2) * 2048 + 1 * q.val = q.val; omega
  · intro k q
    show V c main_v21 (((cfg1.win 7).blk t).view.emb (ix2 k q)) = _
    refine congrArg _ (funext fun a => Fin.ext ?_)
    match a with
    | ⟨0, _⟩ => show win1_7.index t (0 : Fin 2) * 2048 + 1 * k.val = k.val; omega
    | ⟨1, _⟩ => show win1_7.index t (1 : Fin 2) * 2048 + 1 * q.val = q.val; omega
  · intro q
    show V c main_v25 (((cfg1.win 8).blk t).view.emb (ix2 (0 : Fin 1) q)) = _
    refine congrArg _ (funext fun a => Fin.ext ?_)
    match a with
    | ⟨0, _⟩ => show win1_8.index t (0 : Fin 2) * 1 + 1 * 0 = 0; omega
    | ⟨1, _⟩ => show win1_8.index t (1 : Fin 2) * 2048 + 1 * q.val = q.val; omega

/-- An index of the array is in point t's block iff each coordinate is in the block's range on its axis. -/
theorem mem_blk (t : Fin cfg1.N) (i : S4096x2048.Idx) :
    i ∈ ((cfg1.win 9).blk t).view.set ↔ ∀ a : Fin 2, win1_9.index t a * S128x2048.size a ≤ (i a).val ∧ (i a).val < win1_9.index t a * S128x2048.size a + S128x2048.size a := by
  show i ∈ ((View.whole main_v28).slice (win1_9.rect t)).set ↔ _
  rw [View.set_slice_whole, Rect.mem_set_unit]
  exact Iff.rfl

/-- The array after the region: every row lies in the block of the point that is the row's number divided by 128. -/
theorem final (c : Dev nD) : (dat1 V c).arrAt 9 cfg1.N = result V c :=
  (dat1 V c).arrAt_eq_of_cover 9 (result V c) (fun t _ => flushed_eq V c t) fun i => by
    have hi0 : (i 0).val < 4096 := (i 0).isLt
    have hi1 : (i 1).val < 2048 := (i 1).isLt
    have hN : cfg1.N = 32 := N_1
    let t : Fin cfg1.N := ⟨(i 0).val / 128, by rw [hN]; omega⟩
    obtain ⟨e00, e01, e10, e11, e20, e21, e30, e31, e40, e41, e50, e51, e60, e61, e70, e71, e80, e81, e90, e91⟩ := idx_facts t
    refine ⟨t, flush1_9 t, ?_⟩
    rw [mem_blk]
    intro a
    match a with
    | ⟨0, _⟩ => show win1_9.index t (0 : Fin 2) * 128 ≤ (i 0).val ∧ (i 0).val < win1_9.index t (0 : Fin 2) * 128 + 128
                rw [e90]; show (i 0).val / 128 * 128 ≤ (i 0).val ∧ (i 0).val < (i 0).val / 128 * 128 + 128; omega
    | ⟨1, _⟩ => show win1_9.index t (1 : Fin 2) * 2048 ≤ (i 1).val ∧ (i 1).val < win1_9.index t (1 : Fin 2) * 2048 + 2048
                rw [e91]; omega

end Cert.KernelIdeal.Arr1

end
-- ==== Proof.LibColsRead.lean ====
/-
  Two layout readings for matrices, at an entry: two matrices with the same rows laid side by side (a concatenation
  along the columns) read in the left part and in the right part, and a rectangular block cut out of a matrix at a
  row and column offset.
-/
import Idealize.ShloMosaic.PureOps.Ideal
import Idealize.ShloMosaic.Lib.ValueIdx
import Idealize.ShloMosaic.Lib.Pipeline.Value

noncomputable section

namespace Cert.Lib

open Idealize.ShloMosaic Idealize.ShloMosaic.ValueIdx

variable {α : Type}

/-- Two matrices of R rows, A and B columns wide, laid side by side: at (r, k) with k < A, the left one at (r, k). -/
theorem concatenate_cols_left {R A B C : Nat} (a : (⟨2, ![R, A]⟩ : Shape).Idx → α) (b : (⟨2, ![R, B]⟩ : Shape).Idx → α)
    (h : Shape.Concatenates [(⟨2, ![R, A]⟩ : Shape), ⟨2, ![R, B]⟩] ⟨2, ![R, C]⟩ 1) (r : Fin R) (k : Fin A) (kk : Fin C)
    (hk : kk.val = k.val) :
    concatenate ⟨2, ![R, C]⟩ 1 [⟨⟨2, ![R, A]⟩, a⟩, ⟨⟨2, ![R, B]⟩, b⟩] h (ix2 r kk) = a (ix2 r k) :=
  concatenate_pair_apply_left (1 : Fin 2) a b h (ix2 r kk) rfl (ix2 r k) (fun d => match d with
    | ⟨0, _⟩ => rfl
    | ⟨1, _⟩ => hk.symm)

/-- … and at (r, A + k) with k < B, the right one at (r, k). -/
theorem concatenate_cols_right {R A B C : Nat} (a : (⟨2, ![R, A]⟩ : Shape).Idx → α) (b : (⟨2, ![R, B]⟩ : Shape).Idx → α)
    (h : Shape.Concatenates [(⟨2, ![R, A]⟩ : Shape), ⟨2, ![R, B]⟩] ⟨2, ![R, C]⟩ 1) (r : Fin R) (k : Fin B) (kk : Fin C)
    (hk : kk.val = A + k.val) :
    concatenate ⟨2, ![R, C]⟩ 1 [⟨⟨2, ![R, A]⟩, a⟩, ⟨⟨2, ![R, B]⟩, b⟩] h (ix2 r kk) = b (ix2 r k) :=
  concatenate_pair_apply_right (1 : Fin 2) a b h (ix2 r kk) rfl rfl (ix2 r k) (fun d => match d with
    | ⟨0, _⟩ => fun _ => rfl
    | ⟨1, _⟩ => fun hd => absurd rfl hd)
    (show k.val + A = kk.val by omega)

/-- A block of a' rows and b' columns cut out of a matrix at row offset off 0 and column offset off 1: at (p, q), the
    matrix at (off 0 + p, off 1 + q). -/
theorem slice_block_apply {a b a' b' : Nat} (off : Fin 2 → Nat) (X : (⟨2, ![a, b]⟩ : Shape).Idx → α)
    (hs : (⟨2, ![a, b]⟩ : Shape).Slices off ⟨2, ![a', b']⟩) (p : Fin a') (q : Fin b') (pp : Fin a) (qq : Fin b)
    (hp : pp.val = off 0 + p.val) (hq : qq.val = off 1 + q.val) :
    extractStridedSlice ⟨2, ![a', b']⟩ off X hs (ix2 p q) = X (ix2 pp qq) :=
  extractStridedSlice_apply off X hs (ix2 p q) (ix2 pp qq) (fun d => match d with
    | ⟨0, _⟩ => hp
    | ⟨1, _⟩ => hq)

end Cert.Lib

end
-- ==== Proof.HostReads.lean ====
/-
  THE HOST OPERATIONS AROUND THE TWO KERNELS, AT AN ENTRY.

  Before the first kernel the program cuts each gate's [2048, 3072] weight into its first 1024 columns and its last
  2048, transposes each piece (and, for three of the gates, changes the float format, which is the identity on the
  extended reals), and re-lays each [2048] bias as a [1, 2048] row. So entry (k, q) of a transposed x-half is the
  weight's entry (q, k), entry (k, q) of a transposed h-half is the weight's entry (q, 1024 + k), and entry (0, q) of
  a bias row is the bias's entry q. Between the kernels it changes x's float format. No host operation and no kernel
  writes an argument.
-/
import proofs.«148098_j13365938225768_2_alg».proof.Proof.Gen.KernelIdeal.Frame
import proofs.«148098_j13365938225768_2_alg».proof.Proof.LibColsRead
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HostReads

open Cert.KernelIdeal Cert.KernelIdeal.Gen Idealize.ShloMosaic Idealize.ShloMosaic.TcCoe Idealize.ShloMosaic.ValueIdx Idealize.SL.Sem Idealize.ShloMosaic.StableHlo

/-! ## The layout operations at an entry -/

section Layout
variable {α : Type}

/-- The transposed first 1024 columns of a weight, at (k, q): the weight at (q, k). -/
theorem wx_at (W : S2048x3072.Idx → α) (k : Fin 1024) (q : Fin 2048) :
    transpose S1024x2048 [1, 0] (extractStridedSlice S2048x1024 ![0, 0] W slices_S2048x3072_S2048x1024_0_0) transposes_S2048x1024_S1024x2048_1_0 (ix2 k q)
      = W (ix2 q (⟨k.val, by omega⟩ : Fin 3072)) :=
  (transpose_apply [1, 0] (extractStridedSlice S2048x1024 ![0, 0] W slices_S2048x3072_S2048x1024_0_0) transposes_S2048x1024_S1024x2048_1_0
      (ix2 k q) (ix2 q k) (fun d => match d with
        | ⟨0, _⟩ => rfl
        | ⟨1, _⟩ => rfl)).trans
    (Cert.Lib.slice_block_apply ![0, 0] W slices_S2048x3072_S2048x1024_0_0 q k q (⟨k.val, by omega⟩ : Fin 3072) (Nat.zero_add _).symm (Nat.zero_add _).symm)

/-- The transposed last 2048 columns of a weight, at (k, q): the weight at (q, 1024 + k). -/
theorem wh_at (W : S2048x3072.Idx → α) (k : Fin 2048) (q : Fin 2048) :
    transpose S2048x2048 [1, 0] (extractStridedSlice S2048x2048 ![0, 1024] W slices_S2048x3072_S2048x2048_0_1024) transposes_S2048x2048_S2048x2048_1_0 (ix2 k q)
      = W (ix2 q (⟨1024 + k.val, by omega⟩ : Fin 3072)) :=
  (transpose_apply [1, 0] (extractStridedSlice S2048x2048 ![0, 1024] W slices_S2048x3072_S2048x2048_0_1024) transposes_S2048x2048_S2048x2048_1_0
      (ix2 k q) (ix2 q k) (fun d => match d with
        | ⟨0, _⟩ => rfl
        | ⟨1, _⟩ => rfl)).trans
    (Cert.Lib.slice_block_apply ![0, 1024] W slices_S2048x3072_S2048x2048_0_1024 q k q (⟨1024 + k.val, by omega⟩ : Fin 3072) (Nat.zero_add _).symm rfl)

/-- A bias re-laid as one row, at (0, q): the bias at q. -/
theorem row_at (β : S2048.Idx → α) (q : Fin 2048) :
    shapeCast S1x2048 β shapeCasts_S2048_S1x2048 (ix2 (0 : Fin 1) q) = β (ix1 q) :=
  shapeCast_a_1a_apply β shapeCasts_S2048_S1x2048 (0 : Fin 1) q

end Layout

variable (m : (ℓ : Loc nD τ sig) → Buf (Elt Ideal) ℓ) (ρ : Dev nD → PrngReg)

/-! ## What the first kernel finds -/

theorem V1_arg0 (c : Dev nD) : V1 m ρ c main_arg0 = m ((c : Thread nD τ).loc main_arg0) := by
  show StableHlo.after hostOps0 (W0 m ρ c) (Proc.devRef .tc main_arg0) = _
  after_results
theorem V1_arg1 (c : Dev nD) : V1 m ρ c main_arg1 = m ((c : Thread nD τ).loc main_arg1) := by
  show StableHlo.after hostOps0 (W0 m ρ c) (Proc.devRef .tc main_arg1) = _
  after_results
theorem V1_arg2 (c : Dev nD) : V1 m ρ c main_arg2 = m ((c : Thread nD τ).loc main_arg2) := by
  show StableHlo.after hostOps0 (W0 m ρ c) (Proc.devRef .tc main_arg2) = _
  after_results
theorem V1_arg3 (c : Dev nD) : V1 m ρ c main_arg3 = m ((c : Thread nD τ).loc main_arg3) := by
  show StableHlo.after hostOps0 (W0 m ρ c) (Proc.devRef .tc main_arg3) = _
  after_results

/-- The time gate's transposed x-half. -/
theorem V1_v1_at (c : Dev nD) (k : Fin 1024) (q : Fin 2048) :
    V1 m ρ c main_v1 (ix2 k q) = m ((c : Thread nD τ).loc main_arg4) (ix2 q (⟨k.val, by omega⟩ : Fin 3072)) := by
  have e : (V1 m ρ c main_v1 : S1024x2048.Idx → Ideal .f32)
      = transpose S1024x2048 [1, 0] (extractStridedSlice S2048x1024 ![0, 0] (m ((c : Thread nD τ).loc main_arg4)) slices_S2048x3072_S2048x1024_0_0) transposes_S2048x1024_S1024x2048_1_0 := by
    show StableHlo.after hostOps0 (W0 m ρ c) (Proc.devRef .tc main_v1) = _
    after_results <;> rfl
  rw [e]; exact wx_at _ k q
/-- The time gate's transposed h-half. -/
theorem V1_v3_at (c : Dev nD) (k : Fin 2048) (q : Fin 2048) :
    V1 m ρ c main_v3 (ix2 k q) = m ((c : Thread nD τ).loc main_arg4) (ix2 q (⟨1024 + k.val, by omega⟩ : Fin 3072)) := by
  have e : (V1 m ρ c main_v3 : S2048x2048.Idx → Ideal .f32)
      = transpose S2048x2048 [1, 0] (extractStridedSlice S2048x2048 ![0, 1024] (m ((c : Thread nD τ).loc main_arg4)) slices_S2048x3072_S2048x2048_0_1024) transposes_S2048x2048_S2048x2048_1_0 := by
    show StableHlo.after hostOps0 (W0 m ρ c) (Proc.devRef .tc main_v3) = _
    after_results <;> rfl
  rw [e]; exact wh_at _ k q
/-- The time gate's bias row. -/
theorem V1_v22_at (c : Dev nD) (q : Fin 2048) :
    V1 m ρ c main_v22 (ix2 (0 : Fin 1) q) = m ((c : Thread nD τ).loc main_arg5) (ix1 q) := by
  have e : (V1 m ρ c main_v22 : S1x2048.Idx → Ideal .f32) = shapeCast S1x2048 (m ((c : Thread nD τ).loc main_arg5)) shapeCasts_S2048_S1x2048 := by
    show StableHlo.after hostOps0 (W0 m ρ c) (Proc.devRef .tc main_v22) = _
    after_results <;> rfl
  rw [e]; exact row_at _ q
/-- The absorb gate's transposed x-half (its change of float format is the identity). -/
theorem V1_v6_at (c : Dev nD) (k : Fin 1024) (q : Fin 2048) :
    V1 m ρ c main_v6 (ix2 k q) = m ((c : Thread nD τ).loc main_arg6) (ix2 q (⟨k.val, by omega⟩ : Fin 3072)) := by
  have e : (V1 m ρ c main_v6 : S1024x2048.Idx → Ideal .bf16)
      = transpose S1024x2048 [1, 0] (extractStridedSlice S2048x1024 ![0, 0] (m ((c : Thread nD τ).loc main_arg6)) slices_S2048x3072_S2048x1024_0_0) transposes_S2048x1024_S1024x2048_1_0 := by
    show StableHlo.after hostOps0 (W0 m ρ c) (Proc.devRef .tc main_v6) = _
    after_results <;> rfl
  rw [e]; exact wx_at _ k q
/-- The absorb gate's transposed h-half. -/
theorem V1_v9_at (c : Dev nD) (k : Fin 2048) (q : Fin 2048) :
    V1 m ρ c main_v9 (ix2 k q) = m ((c : Thread nD τ).loc main_arg6) (ix2 q (⟨1024 + k.val, by omega⟩ : Fin 3072)) := by
  have e : (V1 m ρ c main_v9 : S2048x2048.Idx → Ideal .bf16)
      = transpose S2048x2048 [1, 0] (extractStridedSlice S2048x2048 ![0, 1024] (m ((c : Thread nD τ).loc main_arg6)) slices_S2048x3072_S2048x2048_0_1024) transposes_S2048x2048_S2048x2048_1_0 := by
    show StableHlo.after hostOps0 (W0 m ρ c) (Proc.devRef .tc main_v9) = _
    after_results <;> rfl
  rw [e]; exact wh_at _ k q
/-- The absorb gate's bias row. -/
theorem V1_v23_at (c : Dev nD) (q : Fin 2048) :
    V1 m ρ c main_v23 (ix2 (0 : Fin 1) q) = m ((c : Thread nD τ).loc main_arg7) (ix1 q) := by
  have e : (V1 m ρ c main_v23 : S1x2048.Idx → Ideal .f32) = shapeCast S1x2048 (m ((c : Thread nD τ).loc main_arg7)) shapeCasts_S2048_S1x2048 := by
    show StableHlo.after hostOps0 (W0 m ρ c) (Proc.devRef .tc main_v23) = _
    after_results <;> rfl
  rw [e]; exact row_at _ q

/-! ## From the second kernel's entry back to the first kernel's exit: only x's format is changed in between -/

theorem W3_main_v26_2 (c : Dev nD) : W3 m ρ c (Proc.devRef .tc main_v26_2) = W2 m ρ c (Proc.devRef .tc main_v26_2) :=
  StableHlo.after_of_forall_not_mem (b := Proc.devRef .tc main_v26_2) _ _ (List.forall_iff_forall_mem.mp (by
    simp only [hostOps1, List.Forall, StableHlo.unary_writes, Finset.mem_singleton]
    exact StableHlo.devRef_ne_of_ne (by decide)))
theorem W3_main_arg1 (c : Dev nD) : W3 m ρ c (Proc.devRef .tc main_arg1) = W2 m ρ c (Proc.devRef .tc main_arg1) :=
  StableHlo.after_of_forall_not_mem (b := Proc.devRef .tc main_arg1) _ _ (List.forall_iff_forall_mem.mp (by
    simp only [hostOps1, List.Forall, StableHlo.unary_writes, Finset.mem_singleton]
    exact StableHlo.devRef_ne_of_ne (by decide)))
theorem W3_main_v12 (c : Dev nD) : W3 m ρ c (Proc.devRef .tc main_v12) = W2 m ρ c (Proc.devRef .tc main_v12) :=
  StableHlo.after_of_forall_not_mem (b := Proc.devRef .tc main_v12) _ _ (List.forall_iff_forall_mem.mp (by
    simp only [hostOps1, List.Forall, StableHlo.unary_writes, Finset.mem_singleton]
    exact StableHlo.devRef_ne_of_ne (by decide)))
theorem W3_main_v15 (c : Dev nD) : W3 m ρ c (Proc.devRef .tc main_v15) = W2 m ρ c (Proc.devRef .tc main_v15) :=
  StableHlo.after_of_forall_not_mem (b := Proc.devRef .tc main_v15) _ _ (List.forall_iff_forall_mem.mp (by
    simp only [hostOps1, List.Forall, StableHlo.unary_writes, Finset.mem_singleton]
    exact StableHlo.devRef_ne_of_ne (by decide)))
theorem W3_main_v24 (c : Dev nD) : W3 m ρ c (Proc.devRef .tc main_v24) = W2 m ρ c (Proc.devRef .tc main_v24) :=
  StableHlo.after_of_forall_not_mem (b := Proc.devRef .tc main_v24) _ _ (List.forall_iff_forall_mem.mp (by
    simp only [hostOps1, List.Forall, StableHlo.unary_writes, Finset.mem_singleton]
    exact StableHlo.devRef_ne_of_ne (by decide)))
theorem W3_main_v18 (c : Dev nD) : W3 m ρ c (Proc.devRef .tc main_v18) = W2 m ρ c (Proc.devRef .tc main_v18) :=
  StableHlo.after_of_forall_not_mem (b := Proc.devRef .tc main_v18) _ _ (List.forall_iff_forall_mem.mp (by
    simp only [hostOps1, List.Forall, StableHlo.unary_writes, Finset.mem_singleton]
    exact StableHlo.devRef_ne_of_ne (by decide)))
theorem W3_main_v21 (c : Dev nD) : W3 m ρ c (Proc.devRef .tc main_v21) = W2 m ρ c (Proc.devRef .tc main_v21) :=
  StableHlo.after_of_forall_not_mem (b := Proc.devRef .tc main_v21) _ _ (List.forall_iff_forall_mem.mp (by
    simp only [hostOps1, List.Forall, StableHlo.unary_writes, Finset.mem_singleton]
    exact StableHlo.devRef_ne_of_ne (by decide)))
theorem W3_main_v25 (c : Dev nD) : W3 m ρ c (Proc.devRef .tc main_v25) = W2 m ρ c (Proc.devRef .tc main_v25) :=
  StableHlo.after_of_forall_not_mem (b := Proc.devRef .tc main_v25) _ _ (List.forall_iff_forall_mem.mp (by
    simp only [hostOps1, List.Forall, StableHlo.unary_writes, Finset.mem_singleton]
    exact StableHlo.devRef_ne_of_ne (by decide)))
theorem W3_main_v26_1 (c : Dev nD) : W3 m ρ c (Proc.devRef .tc main_v26_1) = W2 m ρ c (Proc.devRef .tc main_v26_1) :=
  StableHlo.after_of_forall_not_mem (b := Proc.devRef .tc main_v26_1) _ _ (List.forall_iff_forall_mem.mp (by
    simp only [hostOps1, List.Forall, StableHlo.unary_writes, Finset.mem_singleton]
    exact StableHlo.devRef_ne_of_ne (by decide)))
theorem W3_main_v26_0 (c : Dev nD) : W3 m ρ c (Proc.devRef .tc main_v26_0) = W2 m ρ c (Proc.devRef .tc main_v26_0) :=
  StableHlo.after_of_forall_not_mem (b := Proc.devRef .tc main_v26_0) _ _ (List.forall_iff_forall_mem.mp (by
    simp only [hostOps1, List.Forall, StableHlo.unary_writes, Finset.mem_singleton]
    exact StableHlo.devRef_ne_of_ne (by decide)))
theorem W3_main_arg0 (c : Dev nD) : W3 m ρ c (Proc.devRef .tc main_arg0) = W2 m ρ c (Proc.devRef .tc main_arg0) :=
  StableHlo.after_of_forall_not_mem (b := Proc.devRef .tc main_arg0) _ _ (List.forall_iff_forall_mem.mp (by
    simp only [hostOps1, List.Forall, StableHlo.unary_writes, Finset.mem_singleton]
    exact StableHlo.devRef_ne_of_ne (by decide)))

/-! ## What the second kernel finds -/

/-- The state gate's transposed x-half. -/
theorem V1_v12_at (c : Dev nD) (k : Fin 1024) (q : Fin 2048) :
    V1 m ρ c main_v12 (ix2 k q) = m ((c : Thread nD τ).loc main_arg8) (ix2 q (⟨k.val, by omega⟩ : Fin 3072)) := by
  have e : (V1 m ρ c main_v12 : S1024x2048.Idx → Ideal .bf16)
      = transpose S1024x2048 [1, 0] (extractStridedSlice S2048x1024 ![0, 0] (m ((c : Thread nD τ).loc main_arg8)) slices_S2048x3072_S2048x1024_0_0) transposes_S2048x1024_S1024x2048_1_0 := by
    show StableHlo.after hostOps0 (W0 m ρ c) (Proc.devRef .tc main_v12) = _
    after_results <;> rfl
  rw [e]; exact wx_at _ k q
/-- The state gate's transposed h-half. -/
theorem V1_v15_at (c : Dev nD) (k : Fin 2048) (q : Fin 2048) :
    V1 m ρ c main_v15 (ix2 k q) = m ((c : Thread nD τ).loc main_arg8) (ix2 q (⟨1024 + k.val, by omega⟩ : Fin 3072)) := by
  have e : (V1 m ρ c main_v15 : S2048x2048.Idx → Ideal .bf16)
      = transpose S2048x2048 [1, 0] (extractStridedSlice S2048x2048 ![0, 1024] (m ((c : Thread nD τ).loc main_arg8)) slices_S2048x3072_S2048x2048_0_1024) transposes_S2048x2048_S2048x2048_1_0 := by
    show StableHlo.after hostOps0 (W0 m ρ c) (Proc.devRef .tc main_v15) = _
    after_results <;> rfl
  rw [e]; exact wh_at _ k q
/-- The state gate's bias row. -/
theorem V1_v24_at (c : Dev nD) (q : Fin 2048) :
    V1 m ρ c main_v24 (ix2 (0 : Fin 1) q) = m ((c : Thread nD τ).loc main_arg9) (ix1 q) := by
  have e : (V1 m ρ c main_v24 : S1x2048.Idx → Ideal .f32)
      = shapeCast S1x2048 (m ((c : Thread nD τ).loc main_arg9)) shapeCasts_S2048_S1x2048 := by
    show StableHlo.after hostOps0 (W0 m ρ c) (Proc.devRef .tc main_v24) = _
    after_results <;> rfl
  rw [e]; exact row_at _ q
/-- The mixing gate's transposed x-half. -/
theorem V1_v18_at (c : Dev nD) (k : Fin 1024) (q : Fin 2048) :
    V1 m ρ c main_v18 (ix2 k q) = m ((c : Thread nD τ).loc main_arg10) (ix2 q (⟨k.val, by omega⟩ : Fin 3072)) := by
  have e : (V1 m ρ c main_v18 : S1024x2048.Idx → Ideal .bf16)
      = transpose S1024x2048 [1, 0] (extractStridedSlice S2048x1024 ![0, 0] (m ((c : Thread nD τ).loc main_arg10)) slices_S2048x3072_S2048x1024_0_0) transposes_S2048x1024_S1024x2048_1_0 := by
    show StableHlo.after hostOps0 (W0 m ρ c) (Proc.devRef .tc main_v18) = _
    after_results <;> rfl
  rw [e]; exact wx_at _ k q
/-- The mixing gate's transposed h-half. -/
theorem V1_v21_at (c : Dev nD) (k : Fin 2048) (q : Fin 2048) :
    V1 m ρ c main_v21 (ix2 k q) = m ((c : Thread nD τ).loc main_arg10) (ix2 q (⟨1024 + k.val, by omega⟩ : Fin 3072)) := by
  have e : (V1 m ρ c main_v21 : S2048x2048.Idx → Ideal .bf16)
      = transpose S2048x2048 [1, 0] (extractStridedSlice S2048x2048 ![0, 1024] (m ((c : Thread nD τ).loc main_arg10)) slices_S2048x3072_S2048x2048_0_1024) transposes_S2048x2048_S2048x2048_1_0 := by
    show StableHlo.after hostOps0 (W0 m ρ c) (Proc.devRef .tc main_v21) = _
    after_results <;> rfl
  rw [e]; exact wh_at _ k q
/-- The mixing gate's bias row. -/
theorem V1_v25_at (c : Dev nD) (q : Fin 2048) :
    V1 m ρ c main_v25 (ix2 (0 : Fin 1) q) = m ((c : Thread nD τ).loc main_arg11) (ix1 q) := by
  have e : (V1 m ρ c main_v25 : S1x2048.Idx → Ideal .f32)
      = shapeCast S1x2048 (m ((c : Thread nD τ).loc main_arg11)) shapeCasts_S2048_S1x2048 := by
    show StableHlo.after hostOps0 (W0 m ρ c) (Proc.devRef .tc main_v25) = _
    after_results <;> rfl
  rw [e]; exact row_at _ q

/-- The six parameter arrays of the second kernel are as the host operations before the first kernel left them. -/
theorem V3_v12 (c : Dev nD) : V3 m ρ c main_v12 = V1 m ρ c main_v12 :=
  (W3_main_v12 m ρ c).trans (W2_of_ne m ρ c main_v12 (by decide))
theorem V3_v15 (c : Dev nD) : V3 m ρ c main_v15 = V1 m ρ c main_v15 :=
  (W3_main_v15 m ρ c).trans (W2_of_ne m ρ c main_v15 (by decide))
theorem V3_v24 (c : Dev nD) : V3 m ρ c main_v24 = V1 m ρ c main_v24 :=
  (W3_main_v24 m ρ c).trans (W2_of_ne m ρ c main_v24 (by decide))
theorem V3_v18 (c : Dev nD) : V3 m ρ c main_v18 = V1 m ρ c main_v18 :=
  (W3_main_v18 m ρ c).trans (W2_of_ne m ρ c main_v18 (by decide))
theorem V3_v21 (c : Dev nD) : V3 m ρ c main_v21 = V1 m ρ c main_v21 :=
  (W3_main_v21 m ρ c).trans (W2_of_ne m ρ c main_v21 (by decide))
theorem V3_v25 (c : Dev nD) : V3 m ρ c main_v25 = V1 m ρ c main_v25 :=
  (W3_main_v25 m ρ c).trans (W2_of_ne m ρ c main_v25 (by decide))

/-- h, as the second kernel finds it, is the argument. -/
theorem V3_arg1 (c : Dev nD) : V3 m ρ c main_arg1 = m ((c : Thread nD τ).loc main_arg1) :=
  (W3_main_arg1 m ρ c).trans (((W2_arr m ρ c 1).trans (((dat0 (V1 m ρ) c).arrAt_in 1 rfl _).trans (A_eq0 (V1 m ρ) c 1))).trans (V1_arg1 m ρ c))

/-- x in the second kernel's format, as it finds it, is the argument entry by entry. -/
theorem V3_v27_at (c : Dev nD) (i : S4096x1024.Idx) : V3 m ρ c main_v27 i = m ((c : Thread nD τ).loc main_arg0) i := by
  have e : (V3 m ρ c main_v27 : S4096x1024.Idx → Ideal .bf16) = truncf (F := Ideal) .bf16 (W2 m ρ c (Proc.devRef .tc main_arg0)) bitsLt_bf16_f32 := by
    show StableHlo.after hostOps1 (W2 m ρ c) (Proc.devRef .tc main_v27) = _
    after_results <;> rfl
  rw [e]
  show W2 m ρ c (Proc.devRef .tc main_arg0) i = _
  rw [((W2_arr m ρ c 0).trans (((dat0 (V1 m ρ) c).arrAt_in 0 rfl _).trans (A_eq0 (V1 m ρ) c 0))).trans (V1_arg0 m ρ c)]

end Cert.KernelIdeal.HostReads

end
-- ==== Proof.Spec.lean ====
/-
  THE THREE RESULTS AS FUNCTIONS OF THE TWELVE ARGUMENT ARRAYS.

  Row r of x (1024 entries) and of h (2048 entries) against row q of a gate's weight matrix W (3072 entries: the first
  1024 meet x, the other 2048 meet h) plus entry q of its bias is the gate's pre-activation at (r, q) (`gateAt`). The
  results at (r, q) are the cell's formulas (Cell.lean) of those pre-activations and of the entries (r, q) of h, of the
  excited cell and of the time cell; the last gate reads, in place of h, the array h · energy (`HUp`).
-/
import proofs.«148098_j13365938225768_2_alg».proof.Proof.Cell

noncomputable section

open scoped BigOperators

namespace Cert.Cell

open Idealize.ShloMosaic Idealize.ShloMosaic.ValueIdx

/-- The arrays' types: a batch of 4096 rows; 1024 inputs, 2048 hidden units, 3072 = 1024 + 2048 columns of a weight. -/
abbrev ArrX := (⟨2, ![4096, 1024]⟩ : Shape).Idx → Ideal .f32
abbrev ArrH := (⟨2, ![4096, 2048]⟩ : Shape).Idx → Ideal .f32
abbrev ArrW := (⟨2, ![2048, 3072]⟩ : Shape).Idx → Ideal .f32
abbrev ArrB := (⟨1, ![2048]⟩ : Shape).Idx → Ideal .f32

/-- A gate's pre-activation at (r, q). -/
def gateAt (x : ArrX) (h : ArrH) (W : ArrW) (b : ArrB) (r : Fin 4096) (q : Fin 2048) : Ideal .f32 :=
  lin (fun k => x (ix2 r k)) (fun k => h (ix2 r k)) (fun k => W (ix2 q (⟨k.val, by omega⟩ : Fin 3072)))
    (fun k => W (ix2 q (⟨1024 + k.val, by omega⟩ : Fin 3072))) (b (ix1 q))

/-- The next time cell. -/
def TimeNext (x : ArrX) (h tc : ArrH) (Wt : ArrW) (bt : ArrB) : ArrH :=
  fun i => timeNext (tc i) (gateAt x h Wt bt (i 0) (i 1))

/-- The next excited cell. -/
def Excited (x : ArrX) (h exc tc : ArrH) (Wt : ArrW) (bt : ArrB) (Wa : ArrW) (ba : ArrB) : ArrH :=
  fun i => excited (tc i) (gateAt x h Wt bt (i 0) (i 1)) (exc i) (gateAt x h Wa ba (i 0) (i 1))

/-- The hidden state as the fourth gate sees it: h times the released energy. -/
def HUp (x : ArrX) (h exc tc : ArrH) (Wt : ArrW) (bt : ArrB) : ArrH :=
  fun i => hUp (h i) (tc i) (gateAt x h Wt bt (i 0) (i 1)) (exc i)

/-- The next hidden state. -/
def HNext (x : ArrX) (h exc tc : ArrH) (Wt : ArrW) (bt : ArrB) (We : ArrW) (be : ArrB) (Wh : ArrW) (bh : ArrB) : ArrH :=
  fun i => hNext (gateAt x h Wh bh (i 0) (i 1)) (h i) (gateAt x (HUp x h exc tc Wt bt) We be (i 0) (i 1))

end Cert.Cell

end
-- ==== Proof.Bridge.lean ====
/-
  THE KERNEL PROGRAM'S THREE RESULTS ARE THE CELL'S.

  The first kernel's three arrays, as functions of what it finds (Arr0.lean), with what it finds read back to the
  arguments (HostReads.lean), are the next time cell, the next excited cell and h · energy of the arguments. The second
  kernel finds that last array, h and x as launched, and the other two gates' parameters; its array (Arr1.lean) is the
  next hidden state. Each buffer of the final memory is followed back through the program: a result of the first
  kernel is untouched by everything after it.
-/
import proofs.«148098_j13365938225768_2_alg».proof.Proof.Arr0
import proofs.«148098_j13365938225768_2_alg».proof.Proof.Arr1
import proofs.«148098_j13365938225768_2_alg».proof.Proof.HostReads
import proofs.«148098_j13365938225768_2_alg».proof.Proof.Spec

set_option maxRecDepth 16384

noncomputable section

open scoped BigOperators

namespace Cert.KernelIdeal.Bridge

open Cert.KernelIdeal Cert.KernelIdeal.Gen Cert.KernelIdeal.HostReads Idealize.ShloMosaic Idealize.ShloMosaic.TcCoe Idealize.ShloMosaic.ValueIdx Idealize.SL.Sem Cert.Cell

variable (m : (ℓ : Loc nD τ sig) → Buf (Elt Ideal) ℓ) (ρ : Dev nD → PrngReg)

/-- The first kernel's first array is the next time cell of the arguments. -/
theorem res10_eq (c : Dev nD) : Arr0.res10 (V1 m ρ) c = TimeNext (m ((c : Thread nD τ).loc main_arg0)) (m ((c : Thread nD τ).loc main_arg1)) (m ((c : Thread nD τ).loc main_arg3)) (m ((c : Thread nD τ).loc main_arg4)) (m ((c : Thread nD τ).loc main_arg5)) := by
  funext i
  obtain ⟨r, q, rfl⟩ : ∃ (r : Fin 4096) (q : Fin 2048), i = ix2 r q := ⟨i 0, i 1, eq_ix2 i⟩
  show timeNext ((V1 m ρ c main_arg3) (ix2 r q)) (lin (fun k => (V1 m ρ c main_arg0) (ix2 r k)) (fun k => (V1 m ρ c main_arg1) (ix2 r k)) (fun k => (V1 m ρ c main_v1) (ix2 k q)) (fun k => (V1 m ρ c main_v3) (ix2 k q)) ((V1 m ρ c main_v22) (ix2 (0 : Fin 1) q)))
    = timeNext ((m ((c : Thread nD τ).loc main_arg3)) (ix2 r q)) (lin (fun k => (m ((c : Thread nD τ).loc main_arg0)) (ix2 r k)) (fun k => (m ((c : Thread nD τ).loc main_arg1)) (ix2 r k)) (fun k => (m ((c : Thread nD τ).loc main_arg4)) (ix2 q (⟨k.val, by omega⟩ : Fin 3072))) (fun k => (m ((c : Thread nD τ).loc main_arg4)) (ix2 q (⟨1024 + k.val, by omega⟩ : Fin 3072))) ((m ((c : Thread nD τ).loc main_arg5)) (ix1 q)))
  rw [V1_arg0 m ρ c, V1_arg1 m ρ c, V1_arg3 m ρ c, V1_v22_at m ρ c q,
    show (fun k : Fin 1024 => V1 m ρ c main_v1 (ix2 k q)) = _ from funext fun k => V1_v1_at m ρ c k q,
    show (fun k : Fin 2048 => V1 m ρ c main_v3 (ix2 k q)) = _ from funext fun k => V1_v3_at m ρ c k q]

/-- Its second, the next excited cell. -/
theorem res11_eq (c : Dev nD) : Arr0.res11 (V1 m ρ) c = Excited (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  funext i
  obtain ⟨r, q, rfl⟩ : ∃ (r : Fin 4096) (q : Fin 2048), i = ix2 r q := ⟨i 0, i 1, eq_ix2 i⟩
  show excited ((V1 m ρ c main_arg3) (ix2 r q)) (lin (fun k => (V1 m ρ c main_arg0) (ix2 r k)) (fun k => (V1 m ρ c main_arg1) (ix2 r k)) (fun k => (V1 m ρ c main_v1) (ix2 k q)) (fun k => (V1 m ρ c main_v3) (ix2 k q)) ((V1 m ρ c main_v22) (ix2 (0 : Fin 1) q))) ((V1 m ρ c main_arg2) (ix2 r q)) (lin (fun k => (V1 m ρ c main_arg0) (ix2 r k)) (fun k => (V1 m ρ c main_arg1) (ix2 r k)) (fun k => (V1 m ρ c main_v6) (ix2 k q)) (fun k => (V1 m ρ c main_v9) (ix2 k q)) ((V1 m ρ c main_v23) (ix2 (0 : Fin 1) q)))
    = excited ((m ((c : Thread nD τ).loc main_arg3)) (ix2 r q)) (lin (fun k => (m ((c : Thread nD τ).loc main_arg0)) (ix2 r k)) (fun k => (m ((c : Thread nD τ).loc main_arg1)) (ix2 r k)) (fun k => (m ((c : Thread nD τ).loc main_arg4)) (ix2 q (⟨k.val, by omega⟩ : Fin 3072))) (fun k => (m ((c : Thread nD τ).loc main_arg4)) (ix2 q (⟨1024 + k.val, by omega⟩ : Fin 3072))) ((m ((c : Thread nD τ).loc main_arg5)) (ix1 q))) ((m ((c : Thread nD τ).loc main_arg2)) (ix2 r q)) (lin (fun k => (m ((c : Thread nD τ).loc main_arg0)) (ix2 r k)) (fun k => (m ((c : Thread nD τ).loc main_arg1)) (ix2 r k)) (fun k => (m ((c : Thread nD τ).loc main_arg6)) (ix2 q (⟨k.val, by omega⟩ : Fin 3072))) (fun k => (m ((c : Thread nD τ).loc main_arg6)) (ix2 q (⟨1024 + k.val, by omega⟩ : Fin 3072))) ((m ((c : Thread nD τ).loc main_arg7)) (ix1 q)))
  rw [V1_arg2 m ρ c, V1_arg0 m ρ c, V1_arg1 m ρ c, V1_arg3 m ρ c, V1_v22_at m ρ c q,
    show (fun k : Fin 1024 => V1 m ρ c main_v1 (ix2 k q)) = _ from funext fun k => V1_v1_at m ρ c k q,
    show (fun k : Fin 2048 => V1 m ρ c main_v3 (ix2 k q)) = _ from funext fun k => V1_v3_at m ρ c k q,
    V1_v23_at m ρ c q,
    show (fun k : Fin 1024 => V1 m ρ c main_v6 (ix2 k q)) = _ from funext fun k => V1_v6_at m ρ c k q,
    show (fun k : Fin 2048 => V1 m ρ c main_v9 (ix2 k q)) = _ from funext fun k => V1_v9_at m ρ c k q]

/-- Its third, h times the released energy. -/
theorem res12_eq (c : Dev nD) : Arr0.res12 (V1 m ρ) c = HUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  funext i
  obtain ⟨r, q, rfl⟩ : ∃ (r : Fin 4096) (q : Fin 2048), i = ix2 r q := ⟨i 0, i 1, eq_ix2 i⟩
  show hUp ((V1 m ρ c main_arg1) (ix2 r q)) ((V1 m ρ c main_arg3) (ix2 r q)) (lin (fun k => (V1 m ρ c main_arg0) (ix2 r k)) (fun k => (V1 m ρ c main_arg1) (ix2 r k)) (fun k => (V1 m ρ c main_v1) (ix2 k q)) (fun k => (V1 m ρ c main_v3) (ix2 k q)) ((V1 m ρ c main_v22) (ix2 (0 : Fin 1) q))) ((V1 m ρ c main_arg2) (ix2 r q))
    = hUp ((m ((c : Thread nD τ).loc main_arg1)) (ix2 r q)) ((m ((c : Thread nD τ).loc main_arg3)) (ix2 r q)) (lin (fun k => (m ((c : Thread nD τ).loc main_arg0)) (ix2 r k)) (fun k => (m ((c : Thread nD τ).loc main_arg1)) (ix2 r k)) (fun k => (m ((c : Thread nD τ).loc main_arg4)) (ix2 q (⟨k.val, by omega⟩ : Fin 3072))) (fun k => (m ((c : Thread nD τ).loc main_arg4)) (ix2 q (⟨1024 + k.val, by omega⟩ : Fin 3072))) ((m ((c : Thread nD τ).loc main_arg5)) (ix1 q))) ((m ((c : Thread nD τ).loc main_arg2)) (ix2 r q))
  rw [V1_arg2 m ρ c, V1_arg0 m ρ c, V1_arg1 m ρ c, V1_arg3 m ρ c, V1_v22_at m ρ c q,
    show (fun k : Fin 1024 => V1 m ρ c main_v1 (ix2 k q)) = _ from funext fun k => V1_v1_at m ρ c k q,
    show (fun k : Fin 2048 => V1 m ρ c main_v3 (ix2 k q)) = _ from funext fun k => V1_v3_at m ρ c k q]

/-- The next time cell, in the final memory. -/
theorem res_v26_0 (c : Dev nD) : W4 m ρ c (Proc.devRef .tc main_v26_0) = TimeNext (m ((c : Thread nD τ).loc main_arg0)) (m ((c : Thread nD τ).loc main_arg1)) (m ((c : Thread nD τ).loc main_arg3)) (m ((c : Thread nD τ).loc main_arg4)) (m ((c : Thread nD τ).loc main_arg5)) :=
  (W4_of_ne m ρ c main_v26_0 (by decide)).trans ((W3_main_v26_0 m ρ c).trans ((W2_arr m ρ c 10).trans
    ((Arr0.final10 (V1 m ρ) c).trans (res10_eq m ρ c))))

/-- The next excited cell, in the final memory. -/
theorem res_v26_1 (c : Dev nD) : W4 m ρ c (Proc.devRef .tc main_v26_1) = Excited (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) :=
  (W4_of_ne m ρ c main_v26_1 (by decide)).trans ((W3_main_v26_1 m ρ c).trans ((W2_arr m ρ c 11).trans
    ((Arr0.final11 (V1 m ρ) c).trans (res11_eq m ρ c))))

/-- h · energy, as the second kernel finds it. -/
theorem V3_v26_2 (c : Dev nD) : V3 m ρ c main_v26_2 = HUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W3_main_v26_2 m ρ c).trans ((W2_arr m ρ c 12).trans ((Arr0.final12 (V1 m ρ) c).trans (res12_eq m ρ c)))

/-- The second kernel's array is the next hidden state of the arguments. -/
theorem result1_eq (c : Dev nD) : Arr1.result (V3 m ρ) c = HNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) := by
  funext i
  obtain ⟨r, q, rfl⟩ : ∃ (r : Fin 4096) (q : Fin 2048), i = ix2 r q := ⟨i 0, i 1, eq_ix2 i⟩
  show hNext (lin (fun k => (V3 m ρ c main_v27) (ix2 r k)) (fun k => (V3 m ρ c main_arg1) (ix2 r k)) (fun k => (V3 m ρ c main_v18) (ix2 k q)) (fun k => (V3 m ρ c main_v21) (ix2 k q)) ((V3 m ρ c main_v25) (ix2 (0 : Fin 1) q))) ((V3 m ρ c main_arg1) (ix2 r q)) (lin (fun k => (V3 m ρ c main_v27) (ix2 r k)) (fun k => (V3 m ρ c main_v26_2) (ix2 r k)) (fun k => (V3 m ρ c main_v12) (ix2 k q)) (fun k => (V3 m ρ c main_v15) (ix2 k q)) ((V3 m ρ c main_v24) (ix2 (0 : Fin 1) q)))
    = hNext (lin (fun k => (m ((c : Thread nD τ).loc main_arg0)) (ix2 r k)) (fun k => (m ((c : Thread nD τ).loc main_arg1)) (ix2 r k)) (fun k => (m ((c : Thread nD τ).loc main_arg10)) (ix2 q (⟨k.val, by omega⟩ : Fin 3072))) (fun k => (m ((c : Thread nD τ).loc main_arg10)) (ix2 q (⟨1024 + k.val, by omega⟩ : Fin 3072))) ((m ((c : Thread nD τ).loc main_arg11)) (ix1 q))) ((m ((c : Thread nD τ).loc main_arg1)) (ix2 r q)) (lin (fun k => (m ((c : Thread nD τ).loc main_arg0)) (ix2 r k)) (fun k => (HUp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (ix2 r k)) (fun k => (m ((c : Thread nD τ).loc main_arg8)) (ix2 q (⟨k.val, by omega⟩ : Fin 3072))) (fun k => (m ((c : Thread nD τ).loc main_arg8)) (ix2 q (⟨1024 + k.val, by omega⟩ : Fin 3072))) ((m ((c : Thread nD τ).loc main_arg9)) (ix1 q)))
  rw [V3_v26_2 m ρ c, V3_arg1 m ρ c, V3_v12 m ρ c, V3_v15 m ρ c, V3_v24 m ρ c, V3_v18 m ρ c, V3_v21 m ρ c, V3_v25 m ρ c,
    show (fun k : Fin 1024 => V3 m ρ c main_v27 (ix2 r k)) = _ from funext fun k => V3_v27_at m ρ c (ix2 r k),
    V1_v24_at m ρ c q, V1_v25_at m ρ c q,
    show (fun k : Fin 1024 => V1 m ρ c main_v12 (ix2 k q)) = _ from funext fun k => V1_v12_at m ρ c k q,
    show (fun k : Fin 2048 => V1 m ρ c main_v15 (ix2 k q)) = _ from funext fun k => V1_v15_at m ρ c k q,
    show (fun k : Fin 1024 => V1 m ρ c main_v18 (ix2 k q)) = _ from funext fun k => V1_v18_at m ρ c k q,
    show (fun k : Fin 2048 => V1 m ρ c main_v21 (ix2 k q)) = _ from funext fun k => V1_v21_at m ρ c k q]

/-- The next hidden state, in the final memory. -/
theorem res_v28 (c : Dev nD) : W4 m ρ c (Proc.devRef .tc main_v28) = HNext (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg8)) (m ((c : Thread nD τ).loc main_arg9)) (m ((c : Thread nD τ).loc main_arg10)) (m ((c : Thread nD τ).loc main_arg11)) :=
  (W4_arr m ρ c 9).trans ((Arr1.final (V3 m ρ) c).trans (result1_eq m ρ c))

end Cert.KernelIdeal.Bridge

end
-- ==== Proof.RefIs.lean ====
/-
  THE REFERENCE COMPUTES THE CELL.

  The reference lays x and h side by side as one [4096, 3072] matrix and multiplies it by the transposed weight; at
  (r, q) that is the sum over the 3072 columns k of (x | h)(r, k) · W(q, k), which splits into x's 1024 columns and h's
  2048 (`Cell.sum_cat`): the gate's pre-activation `gateAt`. Everything after a gate is pointwise, and the
  reference's spelling of the logistic function — one over one plus the exponential of the negation — is the logistic
  function (`Cell.logistic_spelt`).
-/
import proofs.«148098_j13365938225768_2_alg».proof.Proof.Spec
import proofs.«148098_j13365938225768_2_alg».proof.Proof.LibRowReads
import proofs.«148098_j13365938225768_2_alg».proof.Proof.LibColsRead
import proofs.«148098_j13365938225768_2_alg».proof.Proof.Gen.ReferenceIdeal.Read

noncomputable section

open scoped BigOperators

namespace Cert.RefIs

open Cert.ReferenceIdeal Cert.ReferenceIdeal.Gen Cert.ReferenceIdeal.Read Idealize.ShloMosaic Idealize.ShloMosaic.ValueIdx Cert.Cell

/-- A gate as the reference computes it — (x | h) times the transposed weight, plus the bias laid along every row —
    is the gate's pre-activation. -/
theorem gate_at (a : Cell.ArrX) (b : Cell.ArrH) (W : Cell.ArrW) (β : Cell.ArrB) (r : Fin 4096) (q : Fin 2048) :
    addf (Host.dotGeneral (F := Ideal) dot_S4096x3072_S3072x2048_S4096x2048_1_0_0_1_n_n none
        (concatenate S4096x3072 1 [⟨S4096x1024, a⟩, ⟨S4096x2048, b⟩] concatenates_S4096x1024_S4096x2048_S4096x3072_d1)
        (transpose S3072x2048 [1, 0] W transposes_S2048x3072_S3072x2048_1_0))
      (broadcastInDim S4096x2048 ![0, 1] bcast_S1x2048_S4096x2048_0_1 (broadcastInDim S1x2048 ![1] bcast_S2048_S1x2048_1 β)) (ix2 r q)
    = gateAt a b W β r q := by
  show FloatOps.addf (Host.dotGeneral (F := Ideal) dot_S4096x3072_S3072x2048_S4096x2048_1_0_0_1_n_n none _ _ (ix2 r q))
      (broadcastInDim S4096x2048 ![0, 1] bcast_S1x2048_S4096x2048_0_1 (broadcastInDim S1x2048 ![1] bcast_S2048_S1x2048_1 β) (ix2 r q)) = _
  rw [Cert.Lib.dotGeneral_at dot_S4096x3072_S3072x2048_S4096x2048_1_0_0_1_n_n rfl rfl rfl rfl rfl rfl,
    Cert.Lib.bcastInDim_vecRows_apply, Cell.sum_cat]
  unfold gateAt lin
  congr 2
  · refine Finset.sum_congr rfl fun k _ => ?_
    refine congr (congrArg _ (Cert.Lib.concatenate_cols_left a b _ r k _ rfl)) ?_
    exact transpose_apply [1, 0] W transposes_S2048x3072_S3072x2048_1_0 _ _ (fun d => match d with
      | ⟨0, _⟩ => rfl
      | ⟨1, _⟩ => rfl)
  · refine Finset.sum_congr rfl fun k _ => ?_
    refine congr (congrArg _ (Cert.Lib.concatenate_cols_right a b _ r k _ rfl)) ?_
    exact transpose_apply [1, 0] W transposes_S2048x3072_S3072x2048_1_0 _ _ (fun d => match d with
      | ⟨0, _⟩ => rfl
      | ⟨1, _⟩ => rfl)

section Stages

variable (x0 : (⟨S4096x1024, .f32⟩ : BufTy).Contents (Elt Ideal)) (x1 x2 x3 : (⟨S4096x2048, .f32⟩ : BufTy).Contents (Elt Ideal))
  (x4 : (⟨S2048x3072, .f32⟩ : BufTy).Contents (Elt Ideal)) (x5 : (⟨S2048, .f32⟩ : BufTy).Contents (Elt Ideal)) (x6 : (⟨S2048x3072, .f32⟩ : BufTy).Contents (Elt Ideal)) (x7 : (⟨S2048, .f32⟩ : BufTy).Contents (Elt Ideal)) (x8 : (⟨S2048x3072, .f32⟩ : BufTy).Contents (Elt Ideal)) (x9 : (⟨S2048, .f32⟩ : BufTy).Contents (Elt Ideal)) (x10 : (⟨S2048x3072, .f32⟩ : BufTy).Contents (Elt Ideal)) (x11 : (⟨S2048, .f32⟩ : BufTy).Contents (Elt Ideal))
  (r : Fin 4096) (q : Fin 2048)

/-- The time gate's pre-activation. -/
theorem v5_at : val_main_v5 (F := Ideal) x0 x1 x4 x5 (ix2 r q) = gateAt x0 x1 x4 x5 r q := by
  unfold val_main_v5 val_main_v2 val_main_v0 val_main_v1 val_main_v4 val_main_v3
  exact gate_at x0 x1 x4 x5 r q

/-- The time cell pushed forward, clamped, minus one. -/
theorem v10_at : val_main_v10 (F := Ideal) x0 x1 x3 x4 x5 (ix2 r q) = t0 (x3 (ix2 r q)) (gateAt x0 x1 x4 x5 r q) := by
  rw [val_main_v10_apply, val_main_v8_apply, val_main_v7_apply, val_main_v6_apply, v5_at, val_main_call0_v0_apply, val_main_v9_apply]
  rfl

/-- The leap indicator. -/
theorem v13_at : val_main_v13 (F := Ideal) x0 x1 x3 x4 x5 (ix2 r q) = leap (x3 (ix2 r q)) (gateAt x0 x1 x4 x5 r q) := by
  rw [val_main_v13_apply, val_main_v12_apply, v10_at, val_main_v11_apply]
  rfl

/-- The next time cell. -/
theorem v16_at : val_main_v16 (F := Ideal) x0 x1 x3 x4 x5 (ix2 r q) = timeNext (x3 (ix2 r q)) (gateAt x0 x1 x4 x5 r q) := by
  rw [val_main_v16_apply, val_main_v15_apply, val_main_v14_apply, v13_at, v10_at]
  rfl

/-- The released energy. -/
theorem v17_at : val_main_v17 (F := Ideal) x0 x1 x2 x3 x4 x5 (ix2 r q)
    = energy (x3 (ix2 r q)) (gateAt x0 x1 x4 x5 r q) (x2 (ix2 r q)) := by
  rw [val_main_v17_apply, v13_at]
  rfl

/-- The absorb gate's pre-activation. -/
theorem v23_at : val_main_v23 (F := Ideal) x0 x1 x6 x7 (ix2 r q) = gateAt x0 x1 x6 x7 r q := by
  unfold val_main_v23 val_main_v20 val_main_v0 val_main_v19 val_main_v22 val_main_v21
  exact gate_at x0 x1 x6 x7 r q

/-- The absorb gate. -/
theorem v29_at : val_main_v29 (F := Ideal) x0 x1 x6 x7 (ix2 r q) = FloatOps.logistic (gateAt x0 x1 x6 x7 r q) := by
  rw [val_main_v29_apply, val_main_v28_apply, val_main_v27_apply, val_main_v26_apply, val_main_v25_apply, val_main_v24_apply, v23_at]
  exact logistic_spelt _

/-- The next excited cell. -/
theorem v31_at : val_main_v31 (F := Ideal) x0 x1 x2 x3 x4 x5 x6 x7 (ix2 r q)
    = excited (x3 (ix2 r q)) (gateAt x0 x1 x4 x5 r q) (x2 (ix2 r q)) (gateAt x0 x1 x6 x7 r q) := by
  rw [val_main_v31_apply, val_main_v30_apply, val_main_v18_apply, v17_at, v29_at, val_main_call1_v0_apply]
  rfl

/-- The hidden state times the released energy, as an array. -/
theorem v32_eq : val_main_v32 (F := Ideal) x0 x1 x2 x3 x4 x5 = HUp x0 x1 x2 x3 x4 x5 := by
  funext i
  obtain ⟨r, q, rfl⟩ : ∃ (r : Fin 4096) (q : Fin 2048), i = ix2 r q := ⟨i 0, i 1, eq_ix2 i⟩
  rw [val_main_v32_apply, v17_at]
  rfl

/-- The state gate's pre-activation: the same linear form, of x and h · energy. -/
theorem v38_at : val_main_v38 (F := Ideal) x0 x1 x2 x3 x4 x5 x8 x9 (ix2 r q) = gateAt x0 (HUp x0 x1 x2 x3 x4 x5) x8 x9 r q := by
  rw [← v32_eq]
  unfold val_main_v38 val_main_v35 val_main_v33 val_main_v34 val_main_v37 val_main_v36
  exact gate_at x0 (val_main_v32 (F := Ideal) x0 x1 x2 x3 x4 x5) x8 x9 r q

/-- The mixing gate's pre-activation. -/
theorem v44_at : val_main_v44 (F := Ideal) x0 x1 x10 x11 (ix2 r q) = gateAt x0 x1 x10 x11 r q := by
  unfold val_main_v44 val_main_v41 val_main_v0 val_main_v40 val_main_v43 val_main_v42
  exact gate_at x0 x1 x10 x11 r q

/-- The mixing gate. -/
theorem v50_at : val_main_v50 (F := Ideal) x0 x1 x10 x11 (ix2 r q) = FloatOps.logistic (gateAt x0 x1 x10 x11 r q) := by
  rw [val_main_v50_apply, val_main_v49_apply, val_main_v48_apply, val_main_v47_apply, val_main_v46_apply, val_main_v45_apply, v44_at]
  exact logistic_spelt _

/-- The next hidden state. -/
theorem v56_at : val_main_v56 (F := Ideal) x0 x1 x2 x3 x4 x5 x8 x9 x10 x11 (ix2 r q)
    = hNext (gateAt x0 x1 x10 x11 r q) (x1 (ix2 r q)) (gateAt x0 (HUp x0 x1 x2 x3 x4 x5) x8 x9 r q) := by
  rw [val_main_v56_apply, val_main_v55_apply, val_main_v54_apply, val_main_v53_apply, val_main_v52_apply, val_main_v51_apply,
    val_main_v50_apply, val_main_v49_apply, val_main_v48_apply, val_main_v47_apply, val_main_v46_apply, val_main_v45_apply, v44_at,
    val_main_v39_apply, v38_at]
  unfold hNext
  rw [← logistic_spelt (gateAt x0 x1 x10 x11 r q)]
  rfl

end Stages

/-! ## The three results -/

section Results

variable (x0 : (⟨S4096x1024, .f32⟩ : BufTy).Contents (Elt Ideal)) (x1 x2 x3 : (⟨S4096x2048, .f32⟩ : BufTy).Contents (Elt Ideal))
  (x4 : (⟨S2048x3072, .f32⟩ : BufTy).Contents (Elt Ideal)) (x5 : (⟨S2048, .f32⟩ : BufTy).Contents (Elt Ideal)) (x6 : (⟨S2048x3072, .f32⟩ : BufTy).Contents (Elt Ideal)) (x7 : (⟨S2048, .f32⟩ : BufTy).Contents (Elt Ideal)) (x8 : (⟨S2048x3072, .f32⟩ : BufTy).Contents (Elt Ideal)) (x9 : (⟨S2048, .f32⟩ : BufTy).Contents (Elt Ideal)) (x10 : (⟨S2048x3072, .f32⟩ : BufTy).Contents (Elt Ideal)) (x11 : (⟨S2048, .f32⟩ : BufTy).Contents (Elt Ideal))

/-- The reference's first result is the next hidden state. -/
theorem hnext_eq : val_main_v56 (F := Ideal) x0 x1 x2 x3 x4 x5 x8 x9 x10 x11 = HNext x0 x1 x2 x3 x4 x5 x8 x9 x10 x11 := by
  funext i
  obtain ⟨r, q, rfl⟩ : ∃ (r : Fin 4096) (q : Fin 2048), i = ix2 r q := ⟨i 0, i 1, eq_ix2 i⟩
  exact v56_at x0 x1 x2 x3 x4 x5 x8 x9 x10 x11 r q

/-- Its second, the next excited cell. -/
theorem excited_eq : val_main_v31 (F := Ideal) x0 x1 x2 x3 x4 x5 x6 x7 = Excited x0 x1 x2 x3 x4 x5 x6 x7 := by
  funext i
  obtain ⟨r, q, rfl⟩ : ∃ (r : Fin 4096) (q : Fin 2048), i = ix2 r q := ⟨i 0, i 1, eq_ix2 i⟩
  exact v31_at x0 x1 x2 x3 x4 x5 x6 x7 r q

/-- Its third, the next time cell. -/
theorem timeNext_eq : val_main_v16 (F := Ideal) x0 x1 x3 x4 x5 = TimeNext x0 x1 x3 x4 x5 := by
  funext i
  obtain ⟨r, q, rfl⟩ : ∃ (r : Fin 4096) (q : Fin 2048), i = ix2 r q := ⟨i 0, i 1, eq_ix2 i⟩
  exact v16_at x0 x1 x3 x4 x5 r q

end Results

end Cert.RefIs

end
-- ==== Proof.lean ====
/-
  THE CERTIFICATE: a recurrent cell's fused kernels against the plain formula.

  The kernel program computes a four-gate recurrent cell in two kernel launches: the first launch the time gate and the
  absorb gate, the next time cell, the next excited cell and the array h · energy; the second launch, reading that array,
  the state gate and the mixing gate and the next hidden state. Each gate's weight is cut into the columns that meet x and
  the columns that meet h, so that a gate is x's product plus h's product plus the bias, where the reference multiplies
  the concatenated row (x | h) by the whole weight: over the extended reals the sum over the 3072 columns is the sum over
  the first 1024 plus the sum over the last 2048, with no condition on the summands. The reference spells the logistic
  function as one over one plus the exponential of the negation, which is the logistic function; the kernel makes the
  leap indicator a float through a signed conversion of the widened bit, the reference through an unsigned conversion of
  the bit, the same number; changes of float format are the identity. Both programs therefore end at the same three
  arrays (Spec.lean): the claim never uses that the inputs are finite.

  The three frames: the two kernel programs' are the generated ones; the reference has no kernel, and its frame is its
  generated run with the results dropped. The idealization rewrote nothing.
-/
import proofs.«148098_j13365938225768_2_alg».proof.Defs
import proofs.«148098_j13365938225768_2_alg».proof.Proof.Gen.Kernel
import proofs.«148098_j13365938225768_2_alg».proof.Proof.Gen.Kernel.Skeleton
import proofs.«148098_j13365938225768_2_alg».proof.Proof.Gen.Kernel.Launch
import proofs.«148098_j13365938225768_2_alg».proof.Proof.Gen.Kernel.Points
import proofs.«148098_j13365938225768_2_alg».proof.Proof.Gen.Kernel.Frame
import proofs.«148098_j13365938225768_2_alg».proof.Proof.Gen.KernelIdeal
import proofs.«148098_j13365938225768_2_alg».proof.Proof.Gen.KernelIdeal.Skeleton
import proofs.«148098_j13365938225768_2_alg».proof.Proof.Gen.KernelIdeal.Launch
import proofs.«148098_j13365938225768_2_alg».proof.Proof.Gen.KernelIdeal.Points
import proofs.«148098_j13365938225768_2_alg».proof.Proof.Gen.KernelIdeal.Frame
import proofs.«148098_j13365938225768_2_alg».proof.Proof.Gen.ReferenceIdeal
import proofs.«148098_j13365938225768_2_alg».proof.Proof.Gen.Pre_finite_inputs
import proofs.«148098_j13365938225768_2_alg».proof.Proof.Gen.ReferenceIdeal.Run
import proofs.«148098_j13365938225768_2_alg».proof.Proof.Gen.ReferenceIdeal.Read
import proofs.«148098_j13365938225768_2_alg».proof.Proof.KRun
import proofs.«148098_j13365938225768_2_alg».proof.Proof.Bridge
import proofs.«148098_j13365938225768_2_alg».proof.Proof.RefIs
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- At the extended reals both programs end with the next hidden state, the next excited cell and the next time cell
    of the arguments. -/
theorem algebraic : Cert.algebraic_KernelIdeal_ReferenceIdeal := by
  intro m ρ m' ρ' _ hagree
  refine ⟨fun c => Cert.Cell.HNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.Cell.Excited (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    fun c => Cert.Cell.TimeNext (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.RunAt.run (F := Ideal) m ρ)
    obtain ⟨h28, h261, h260, hargs⟩ := h c
    exact ⟨h28.trans (Cert.KernelIdeal.Bridge.res_v28 m ρ c), h261.trans (Cert.KernelIdeal.Bridge.res_v26_1 m ρ c),
      h260.trans (Cert.KernelIdeal.Bridge.res_v26_0 m ρ c), hargs⟩
  · refine (θ_run Cert.ReferenceIdeal.defs _ _).mono (fun r h c => ?_) (Cert.ReferenceIdeal.Value.run (F := Ideal) m' ρ')
    obtain ⟨h56, h31, h16, hargs⟩ := h c
    obtain ⟨a0, a1, a2, a3, a4, a5, a6, a7, a8, a9, a10, a11⟩ := hagree c
    refine ⟨h56.trans ?_, h31.trans ?_, h16.trans ?_, hargs⟩
    · rw [Cert.ReferenceIdeal.Read.val_main_v56_eq, Cert.RefIs.hnext_eq, a0, a1, a2, a3, a4, a5, a8, a9, a10, a11]
    · rw [Cert.ReferenceIdeal.Read.val_main_v31_eq, Cert.RefIs.excited_eq, a0, a1, a2, a3, a4, a5, a6, a7]
    · rw [Cert.ReferenceIdeal.Read.val_main_v16_eq, Cert.RefIs.timeNext_eq, a0, a1, a3, a4, a5]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
